-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x256 : Shape := ⟨3, ![256, 64, 256]⟩
abbrev S8x2048x2048 : Shape := ⟨3, ![8, 2048, 2048]⟩
abbrev S8x2048 : Shape := ⟨2, ![8, 2048]⟩
abbrev S_ : Shape := ⟨0, ![]⟩

class Facts : Prop where
  bcast_S_S256x64x256 : S_.BroadcastsInDim S256x64x256 (![] : Fin 0 → Fin S256x64x256.rank)
  reducesTo_S256x64x256_S_d0_1_2 : S256x64x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part2 {F : FTy → Type} [FloatOps F] (main_arg7 : FVec F S8x2048 .f32) (main_v33 : IVec S_ 1) : IVec S_ 1 :=
  let main_v34 : FVec F S8x2048 .f32 := Host.absf main_arg7
  let main_cst_12 : FVec F S_ .f32 := constant S_ .f32 0x7F800000#32
  let main_v35 : FVec F S8x2048 .f32 := broadcastInDim S8x2048 ![] bcast_S_S8x2048 main_cst_12
  let main_v36 : IVec S8x2048 1 := cmpf .olt main_v34 main_v35
  let main_c_13 : IVec S_ 1 := constantI S_ 1 1#1
  let main_v37 : IVec S_ 1 := (fun x v => Host.reduce IntOp.andi x v reducesTo_S8x2048_S_d0_1 h_S_) main_v36 main_c_13
  let main_v38 : IVec S_ 1 := andi main_v33 main_v37
  main_v38

def fn_part1 {F : FTy → Type} [FloatOps F] (main_arg4 : FVec F S8x2048x2048 .f32) (main_arg5 : FVec F S8x2048 .f32) (main_arg6 : FVec F S8x2048x2048 .f32) (main_arg7 : FVec F S8x2048 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S8x2048x2048 .f32 := Host.absf main_arg4
  let main_cst_6 : FVec F S_ .f32 := constant S_ .f32 0x7F800000#32
  let main_v20 : FVec F S8x2048x2048 .f32 := broadcastInDim S8x2048x2048 ![] bcast_S_S8x2048x2048 main_cst_6
  let main_v21 : IVec S8x2048x2048 1 := cmpf .olt main_v19 main_v20
  let main_c_7 : IVec S_ 1 := constantI S_ 1 1#1
  let main_v22 : IVec S_ 1 := (fun x v => Host.reduce IntOp.andi x v reducesTo_S8x2048x2048_S_d0_1_2 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  let main_v29 : FVec F S8x2048x2048 .f32 := Host.absf main_arg6
  let main_cst_10 : FVec F S_ .f32 := constant S_ .f32 0x7F800000#32
  let main_v30 : FVec F S8x2048x2048 .f32 := broadcastInDim S8x2048x2048 ![] bcast_S_S8x2048x2048 main_cst_10
  let main_v31 : IVec S8x2048x2048 1 := cmpf .olt main_v29 main_v30
  let main_c_11 : IVec S_ 1 := constantI S_ 1 1#1
  let main_v32 : IVec S_ 1 := (fun x v => Host.reduce IntOp.andi x v reducesTo_S8x2048x2048_S_d0_1_2 h_S_) main_v31 main_c_11
  let main_v33 : IVec S_ 1 := andi main_v28 main_v32
  fn_part2 (F := F) main_arg7 main_v33

def fn {F : FTy → Type} [FloatOps F] (main_arg0 : FVec F S256x64x256 .f32) (main_arg1 : FVec F S256x64x256 .f32) (main_arg2 : FVec F S8x2048x2048 .f32) (main_arg3 : FVec F S8x2048 .f32) (main_arg4 : FVec F S8x2048x2048 .f32) (main_arg5 : FVec F S8x2048 .f32) (main_arg6 : FVec F S8x2048x2048 .f32) (main_arg7 : FVec F S8x2048 .f32) : IVec S_ 1 :=
  let main_v0 : FVec F S256x64x256 .f32 := Host.absf main_arg0
  let main_cst : FVec F S_ .f32 := constant S_ .f32 0x7F800000#32
  let main_v1 : FVec F S256x64x256 .f32 := broadcastInDim S256x64x256 ![] bcast_S_S256x64x256 main_cst
  let main_v2 : IVec S256x64x256 1 := cmpf .olt main_v0 main_v1
  let main_c : IVec S_ 1 := constantI S_ 1 1#1
  let main_v3 : IVec S_ 1 := (fun x v => Host.reduce IntOp.andi x v reducesTo_S256x64x256_S_d0_1_2 h_S_) main_v2 main_c
  let main_v4 : FVec F S256x64x256 .f32 := Host.absf main_arg1
  let main_cst_0 : FVec F S_ .f32 := constant S_ .f32 0x7F800000#32
  let main_v5 : FVec F S256x64x256 .f32 := broadcastInDim S256x64x256 ![] bcast_S_S256x64x256 main_cst_0
  let main_v6 : IVec S256x64x256 1 := cmpf .olt main_v4 main_v5
  let main_c_1 : IVec S_ 1 := constantI S_ 1 1#1
  let main_v7 : IVec S_ 1 := (fun x v => Host.reduce IntOp.andi x v reducesTo_S256x64x256_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_arg5 main_arg6 main_arg7 main_v13 main_v16
-- ==== Kernel.lean ====
abbrev S256x64x256 : Shape := ⟨3, ![256, 64, 256]⟩
abbrev S8x2048x2048 : Shape := ⟨3, ![8, 2048, 2048]⟩
abbrev S8x2048 : Shape := ⟨2, ![8, 2048]⟩
abbrev S8x1x2048 : Shape := ⟨3, ![8, 1, 2048]⟩
abbrev S256x64x8x32 : Shape := ⟨4, ![256, 64, 8, 32]⟩
abbrev S8x256x64x32 : Shape := ⟨4, ![8, 256, 64, 32]⟩
abbrev S8x256x2048 : Shape := ⟨3, ![8, 256, 2048]⟩
abbrev S1x256x512 : Shape := ⟨3, ![1, 256, 512]⟩
abbrev S1x2048x512 : Shape := ⟨3, ![1, 2048, 512]⟩
abbrev S1x1x2048 : Shape := ⟨3, ![1, 1, 2048]⟩
abbrev S1x256x2048 : Shape := ⟨3, ![1, 256, 2048]⟩
abbrev S256x2048 : Shape := ⟨2, ![256, 2048]⟩
abbrev S1x2048 : Shape := ⟨2, ![1, 2048]⟩
abbrev S256x512 : Shape := ⟨2, ![256, 512]⟩
abbrev S2048x512 : Shape := ⟨2, ![2048, 512]⟩
abbrev S256x64x32 : Shape := ⟨3, ![256, 64, 32]⟩
abbrev S256x64x64 : Shape := ⟨3, ![256, 64, 64]⟩
abbrev S256x64 : Shape := ⟨2, ![256, 64]⟩
abbrev S256x1x64 : Shape := ⟨3, ![256, 1, 64]⟩

abbrev nBuf : Space → Nat
  | .hbm => 23
  | .vmem => 21
  | .smem => 0
  | _ => 0

abbrev bufTy : (tb : Table) → Fin (tcTables nBuf tb) → BufTy
  | .hbm, ⟨0, _⟩ => ⟨S256x64x256, .f32⟩
  | .hbm, ⟨1, _⟩ => ⟨S256x64x256, .f32⟩
  | .hbm, ⟨2, _⟩ => ⟨S8x2048x2048, .f32⟩
  | .hbm, ⟨3, _⟩ => ⟨S8x2048, .f32⟩
  | .hbm, ⟨4, _⟩ => ⟨S8x2048x2048, .f32⟩
  | .hbm, ⟨5, _⟩ => ⟨S8x2048, .f32⟩
  | .hbm, ⟨6, _⟩ => ⟨S8x2048x2048, .f32⟩
  | .hbm, ⟨7, _⟩ => ⟨S8x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S256x64x8x32, .f32⟩
  | .hbm, ⟨12, _⟩ => ⟨S8x256x64x32, .f32⟩
  | .hbm, ⟨13, _⟩ => ⟨S8x256x2048, .f32⟩
  | .hbm, ⟨14, _⟩ => ⟨S8x256x2048, .bf16⟩
  | .hbm, ⟨15, _⟩ => ⟨S256x64x8x32, .f32⟩
  | .hbm, ⟨16, _⟩ => ⟨S8x256x64x32, .f32⟩
  | .hbm, ⟨17, _⟩ => ⟨S8x256x2048, .f32⟩
  | .hbm, ⟨18, _⟩ => ⟨S8x256x2048, .bf16⟩
  | .hbm, ⟨19, _⟩ => ⟨S8x256x2048, .f32⟩
  | .hbm, ⟨20, _⟩ => ⟨S8x256x64x32, .f32⟩
  | .hbm, ⟨21, _⟩ => ⟨S256x64x8x32, .f32⟩
  | .hbm, ⟨22, _⟩ => ⟨S256x64x256, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x2048x512, .f32⟩
  | .local _ .vmem, ⟨5, _⟩ => ⟨S1x2048x512, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x512, .f32⟩
  | .local _ .vmem, ⟨9, _⟩ => ⟨S1x2048x512, .f32⟩
  | .local _ .vmem, ⟨10, _⟩ => ⟨S1x1x2048, .f32⟩
  | .local _ .vmem, ⟨11, _⟩ => ⟨S1x1x2048, .f32⟩
  | .local _ .vmem, ⟨12, _⟩ => ⟨S1x2048x512, .f32⟩
  | .local _ .vmem, ⟨13, _⟩ => ⟨S1x2048x512, .f32⟩
  | .local _ .vmem, ⟨14, _⟩ => ⟨S1x1x2048, .f32⟩
  | .local _ .vmem, ⟨15, _⟩ => ⟨S1x1x2048, .f32⟩
  | .local _ .vmem, ⟨16, _⟩ => ⟨S1x256x2048, .f32⟩
  | .local _ .vmem, ⟨17, _⟩ => ⟨S1x256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | _, _ => ⟨S256x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_29 : BitVec 32 := 0#32
  let v36 : BitVec 1 := Scalar.cmpi .ne v35 c0_i32_29
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S8x2048_S8x1x2048 : S8x2048.ShapeCasts S8x1x2048
  shapeCasts_S256x64x256_S256x64x8x32 : S256x64x256.ShapeCasts S256x64x8x32
  transposes_S256x64x8x32_S8x256x64x32_2_0_1_3 : S256x64x8x32.Transposes [2, 0, 1, 3] S8x256x64x32
  shapeCasts_S8x256x64x32_S8x256x2048 : S8x256x64x32.ShapeCasts S8x256x2048
  bitsLt_bf16_f32 : FTy.bits .bf16 < FTy.bits .f32
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S256x2048_S256x64x32 : S256x2048.ShapeCasts S256x64x32
  reduces_S256x64x64_S256x64 : S256x64x64.Reduces [1] S256x64
  shapeCasts_S256x64_S256x1x64 : S256x64.ShapeCasts S256x1x64
  broadcasts_S256x1x64_S256x64x64 : S256x1x64.Broadcasts S256x64x64
  shapeCasts_S256x64x32_S256x2048 : S256x64x32.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S8x256x2048_S8x256x64x32 : S8x256x2048.ShapeCasts S8x256x64x32
  transposes_S8x256x64x32_S256x64x8x32_1_2_0_3 : S8x256x64x32.Transposes [1, 2, 0, 3] S256x64x8x32
  shapeCasts_S256x64x8x32_S256x64x256 : S256x64x8x32.ShapeCasts S256x64x256
  dot_S256x512_S2048x512_S256x2048_1_1_0_0_n_n_wf : DotDims.WF S256x512 S2048x512 S256x2048 [1] [1] [0] [0] [] []
  dot_S256x64x32_S256x64x32_S256x64x64_2_2_1_1_0_0_wf : DotDims.WF S256x64x32 S256x64x32 S256x64x64 [2] [2] [1] [1] [0] [0]
  dot_S256x64x64_S256x64x32_S256x64x32_2_1_1_2_0_0_wf : DotDims.WF S256x64x64 S256x64x32 S256x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x256x2048.size a
  hwx0_0 : ∀ i : grid0.Coords, EltTy.bits .bf16 = 32 ∨ (Rect.block (s := S8x256x2048) S1x256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S8x256x2048.size a
  hwx0_1 : ∀ i : grid0.Coords, EltTy.bits .bf16 = 32 ∨ (Rect.block (s := S8x256x2048) S1x256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x2048.size a
  hwx0_2 : ∀ i : grid0.Coords, EltTy.bits .f32 = 32 ∨ (Rect.block (s := S8x2048x2048) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x2048x2048.size a
  hwx0_4 : ∀ i : grid0.Coords, EltTy.bits .f32 = 32 ∨ (Rect.block (s := S8x2048x2048) S1x2048x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S8x1x2048.size a
  hwx0_5 : ∀ i : grid0.Coords, EltTy.bits .f32 = 32 ∨ (Rect.block (s := S8x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x512.size a ≤ S8x2048x2048.size a
  hwx0_6 : ∀ i : grid0.Coords, EltTy.bits .f32 = 32 ∨ (Rect.block (s := S8x2048x2048) S1x2048x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S8x1x2048.size a
  hwx0_7 : ∀ i : grid0.Coords, EltTy.bits .f32 = 32 ∨ (Rect.block (s := S8x1x2048) S1x1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x2048.size a ≤ S8x256x2048.size a
  hwx0_8 : ∀ i : grid0.Coords, EltTy.bits .f32 = 32 ∨ (Rect.block (s := S8x256x2048) S1x256x2048.size (cc0_transform_8 i) (hinb0_8 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x64x32_S256x64x32_S256x64x64_2_2_1_1_0_0 : DotDims S256x64x32 S256x64x32 S256x64x64 where
  lhsContracting := [2]
  rhsContracting := [2]
  lhsNonContracting := [1]
  rhsNonContracting := [1]
  lhsBatch := [0]
  rhsBatch := [0]
  wf := dot_S256x64x32_S256x64x32_S256x64x64_2_2_1_1_0_0_wf
def dot_S256x64x64_S256x64x32_S256x64x32_2_1_1_2_0_0 : DotDims S256x64x64 S256x64x32 S256x64x32 where
  lhsContracting := [2]
  rhsContracting := [1]
  lhsNonContracting := [1]
  rhsNonContracting := [2]
  lhsBatch := [0]
  rhsBatch := [0]
  wf := dot_S256x64x64_S256x64x32_S256x64x32_2_1_1_2_0_0_wf

abbrev win0_0 : Pipeline.Window sig grid0 :=
  Pipeline.Window.ofSpec (Memref.whole main_v6) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x2048x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S256x64x256 : Shape := ⟨3, ![256, 64, 256]⟩
abbrev S8x2048x2048 : Shape := ⟨3, ![8, 2048, 2048]⟩
abbrev S8x2048 : Shape := ⟨2, ![8, 2048]⟩
abbrev S256x64x8x32 : Shape := ⟨4, ![256, 64, 8, 32]⟩
abbrev S8x256x64x32 : Shape := ⟨4, ![8, 256, 64, 32]⟩
abbrev S8x256x2048 : Shape := ⟨3, ![8, 256, 2048]⟩
abbrev S8x1x2048 : Shape := ⟨3, ![8, 1, 2048]⟩
abbrev S8x256x64x64 : Shape := ⟨4, ![8, 256, 64, 64]⟩
abbrev S_ : Shape := ⟨0, ![]⟩
abbrev S8x256x64 : Shape := ⟨3, ![8, 256, 64]⟩
abbrev S8x256x1x64 : Shape := ⟨4, ![8, 256, 1, 64]⟩

abbrev nBuf : Space → Nat
  | .hbm => 50
  | .vmem => 0
  | .smem => 0
  | _ => 0

abbrev bufTy : (tb : Table) → Fin (tcTables nBuf tb) → BufTy
  | .hbm, ⟨0, _⟩ => ⟨S256x64x256, .f32⟩
  | .hbm, ⟨1, _⟩ => ⟨S256x64x256, .f32⟩
  | .hbm, ⟨2, _⟩ => ⟨S8x2048x2048, .f32⟩
  | .hbm, ⟨3, _⟩ => ⟨S8x2048, .f32⟩
  | .hbm, ⟨4, _⟩ => ⟨S8x2048x2048, .f32⟩
  | .hbm, ⟨5, _⟩ => ⟨S8x2048, .f32⟩
  | .hbm, ⟨6, _⟩ => ⟨S8x2048x2048, .f32⟩
  | .hbm, ⟨7, _⟩ => ⟨S8x2048, .f32⟩
  | .hbm, ⟨8, _⟩ => ⟨S256x64x8x32, .f32⟩
  | .hbm, ⟨9, _⟩ => ⟨S8x256x64x32, .f32⟩
  | .hbm, ⟨10, _⟩ => ⟨S8x256x2048, .f32⟩
  | .hbm, ⟨11, _⟩ => ⟨S256x64x8x32, .f32⟩
  | .hbm, ⟨12, _⟩ => ⟨S8x256x64x32, .f32⟩
  | .hbm, ⟨13, _⟩ => ⟨S8x256x2048, .f32⟩
  | .hbm, ⟨14, _⟩ => ⟨S8x256x2048, .f32⟩
  | .hbm, ⟨15, _⟩ => ⟨S8x1x2048, .f32⟩
  | .hbm, ⟨16, _⟩ => ⟨S8x256x2048, .f32⟩
  | .hbm, ⟨17, _⟩ => ⟨S8x256x2048, .f32⟩
  | .hbm, ⟨18, _⟩ => ⟨S8x256x64x32, .f32⟩
  | .hbm, ⟨19, _⟩ => ⟨S8x256x2048, .f32⟩
  | .hbm, ⟨20, _⟩ => ⟨S8x1x2048, .f32⟩
  | .hbm, ⟨21, _⟩ => ⟨S8x256x2048, .f32⟩
  | .hbm, ⟨22, _⟩ => ⟨S8x256x2048, .f32⟩
  | .hbm, ⟨23, _⟩ => ⟨S8x256x64x32, .f32⟩
  | .hbm, ⟨24, _⟩ => ⟨S8x256x2048, .f32⟩
  | .hbm, ⟨25, _⟩ => ⟨S8x1x2048, .f32⟩
  | .hbm, ⟨26, _⟩ => ⟨S8x256x2048, .f32⟩
  | .hbm, ⟨27, _⟩ => ⟨S8x256x2048, .f32⟩
  | .hbm, ⟨28, _⟩ => ⟨S8x256x64x32, .f32⟩
  | .hbm, ⟨29, _⟩ => ⟨S8x256x64x64, .f32⟩
  | .hbm, ⟨30, _⟩ => ⟨S_, .f32⟩
  | .hbm, ⟨31, _⟩ => ⟨S8x256x64, .f32⟩
  | .hbm, ⟨32, _⟩ => ⟨S_, .f32⟩
  | .hbm, ⟨33, _⟩ => ⟨S8x256x64, .f32⟩
  | .hbm, ⟨34, _⟩ => ⟨S8x256x64, .f32⟩
  | .hbm, ⟨35, _⟩ => ⟨S8x256x1x64, .f32⟩
  | .hbm, ⟨36, _⟩ => ⟨S8x256x64x64, .f32⟩
  | .hbm, ⟨37, _⟩ => ⟨S8x256x64x64, .f32⟩
  | .hbm, ⟨38, _⟩ => ⟨S8x256x64x64, .f32⟩
  | .hbm, ⟨39, _⟩ => ⟨S_, .f32⟩
  | .hbm, ⟨40, _⟩ => ⟨S8x256x64, .f32⟩
  | .hbm, ⟨41, _⟩ => ⟨S8x256x1x64, .f32⟩
  | .hbm, ⟨42, _⟩ => ⟨S8x256x64x64, .f32⟩
  | .hbm, ⟨43, _⟩ => ⟨S8x256x64x64, .f32⟩
  | .hbm, ⟨44, _⟩ => ⟨S8x256x64x32, .f32⟩
  | .hbm, ⟨45, _⟩ => ⟨S_, .f32⟩
  | .hbm, ⟨46, _⟩ => ⟨S8x256x64x32, .f32⟩
  | .hbm, ⟨47, _⟩ => ⟨S8x256x64x32, .f32⟩
  | .hbm, ⟨48, _⟩ => ⟨S256x64x8x32, .f32⟩
  | .hbm, ⟨49, _⟩ => ⟨S256x64x256, .f32⟩
  | _, _ => ⟨S256x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  shapeCasts_S256x64x256_S256x64x8x32 : S256x64x256.ShapeCasts S256x64x8x32
  transposes_S256x64x8x32_S8x256x64x32_2_0_1_3 : S256x64x8x32.Transposes [2, 0, 1, 3] S8x256x64x32
  shapeCasts_S8x256x64x32_S8x256x2048 : S8x256x64x32.ShapeCasts S8x256x2048
  bcast_S8x2048_S8x1x2048_0_2 : S8x2048.BroadcastsInDim S8x1x2048 (![0, 2] : Fin 2 → Fin S8x1x2048.rank)
  bcast_S8x1x2048_S8x256x2048_0_1_2 : S8x1x2048.BroadcastsInDim S8x256x2048 (![0, 1, 2] : Fin 3 → Fin S8x256x2048.rank)
  shapeCasts_S8x256x2048_S8x256x64x32 : S8x256x2048.ShapeCasts S8x256x64x32
  reducesTo_S8x256x64x64_S8x256x64_d2 : S8x256x64x64.ReducesTo [2] S8x256x64
  h_S_ : 0 < S_.numel
  bcast_S_S8x256x64 : S_.BroadcastsInDim S8x256x64 (![] : Fin 0 → Fin S8x256x64.rank)
  bcast_S8x256x64_S8x256x1x64_0_1_3 : S8x256x64.BroadcastsInDim S8x256x1x64 (![0, 1, 3] : Fin 3 → Fin S8x256x1x64.rank)
  bcast_S8x256x1x64_S8x256x64x64_0_1_2_3 : S8x256x1x64.BroadcastsInDim S8x256x64x64 (![0, 1, 2, 3] : Fin 4 → Fin S8x256x64x64.rank)
  bcast_S_S8x256x64x32 : S_.BroadcastsInDim S8x256x64x32 (![] : Fin 0 → Fin S8x256x64x32.rank)
  transposes_S8x256x64x32_S256x64x8x32_1_2_0_3 : S8x256x64x32.Transposes [1, 2, 0, 3] S256x64x8x32
  shapeCasts_S256x64x8x32_S256x64x256 : S256x64x8x32.ShapeCasts S256x64x256
  dot_S8x256x2048_S8x2048x2048_S8x256x2048_2_2_1_1_0_0_wf : DotDims.WF S8x256x2048 S8x2048x2048 S8x256x2048 [2] [2] [1] [1] [0] [0]
  dot_S8x256x64x32_S8x256x64x32_S8x256x64x64_3_3_2_2_01_01_wf : DotDims.WF S8x256x64x32 S8x256x64x32 S8x256x64x64 [3] [3] [2] [2] [0, 1] [0, 1]
  dot_S8x256x64x64_S8x256x64x32_S8x256x64x32_3_2_2_3_01_01_wf : DotDims.WF S8x256x64x64 S8x256x64x32 S8x256x64x32 [3] [2] [2] [3] [0, 1] [0, 1]

variable [Facts₀]

def dot_S8x256x2048_S8x2048x2048_S8x256x2048_2_2_1_1_0_0 : DotDims S8x256x2048 S8x2048x2048 S8x256x2048 where
  lhsContracting := [2]
  rhsContracting := [2]
  lhsNonContracting := [1]
  rhsNonContracting := [1]
  lhsBatch := [0]
  rhsBatch := [0]
  wf := dot_S8x256x2048_S8x2048x2048_S8x256x2048_2_2_1_1_0_0_wf
def dot_S8x256x64x32_S8x256x64x32_S8x256x64x64_3_3_2_2_01_01 : DotDims S8x256x64x32 S8x256x64x32 S8x256x64x64 where
  lhsContracting := [3]
  rhsContracting := [3]
  lhsNonContracting := [2]
  rhsNonContracting := [2]
  lhsBatch := [0, 1]
  rhsBatch := [0, 1]
  wf := dot_S8x256x64x32_S8x256x64x32_S8x256x64x64_3_3_2_2_01_01_wf
def dot_S8x256x64x64_S8x256x64x32_S8x256x64x32_3_2_2_3_01_01 : DotDims S8x256x64x64 S8x256x64x32 S8x256x64x32 where
  lhsContracting := [3]
  rhsContracting := [2]
  lhsNonContracting := [2]
  rhsNonContracting := [3]
  lhsBatch := [0, 1]
  rhsBatch := [0, 1]
  wf := dot_S8x256x64x64_S8x256x64x32_S8x256x64x32_3_2_2_3_01_01_wf

class Facts : Prop extends Facts₀ where

variable [Facts]
-- ==== Proof.Pieces.lean ====
/-
  What one visit of the kernel body leaves behind, as values.

  The body keeps three accumulators (for the query, key and value projections) across the four visits of a head.
  The first visit of a head overwrites each accumulator with the head's bias row repeated down the rows and then adds
  the visit's partial product; a later visit adds its partial product to what the visit before left; the last visit
  moreover computes the attention of the three finished accumulators and stores it as the head's output block.
  Each statement below says that what a visit leaves in a buffer is the corresponding pure term of the body applied
  to the blocks the visit was given (and, after the first visit, to the accumulators as it found them).
-/
import proofs.«110373_j63084479644164_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First visit of a head, query accumulator: the bias row repeated, plus the visit's partial product. -/
theorem first_0 (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : cond0_0 i) (hc1 : ¬cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay8 x0 x2 (k0_pay3 x3) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S256x2048) hz2, View.readCov_unit_zero (S := S256x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

/-- First visit of a head, key accumulator. -/
theorem first_1 (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : cond0_0 i) (hc1 : ¬cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay9 x1 x4 (k0_pay4 x5) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S256x2048) hz2, View.readCov_unit_zero (S := S256x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

/-- First visit of a head, value accumulator. -/
theorem first_2 (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : cond0_0 i) (hc1 : ¬cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay1 (k0_pay6 x1) (k0_pay7 x6) (k0_pay5 x7) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S256x2048) hz2, View.readCov_unit_zero (S := S256x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

/-- A middle visit, query accumulator: what it found plus the visit's partial product. -/
theorem middle_0 (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : ¬cond0_0 i) (hc1 : ¬cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) (xs0 : Vec F S256x2048 .f32) (xs1 : Vec F S256x2048 .f32) (xs2 : Vec F S256x2048 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = k0_pay8 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

/-- A middle visit, key accumulator. -/
theorem middle_1 (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : ¬cond0_0 i) (hc1 : ¬cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) (xs0 : Vec F S256x2048 .f32) (xs1 : Vec F S256x2048 .f32) (xs2 : Vec F S256x2048 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = k0_pay9 x1 x4 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

/-- A middle visit, value accumulator. -/
theorem middle_2 (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : ¬cond0_0 i) (hc1 : ¬cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) (xs0 : Vec F S256x2048 .f32) (xs1 : Vec F S256x2048 .f32) (xs2 : Vec F S256x2048 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = k0_pay1 (k0_pay6 x1) (k0_pay7 x6) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

/-- The last visit of a head, query accumulator. -/
theorem last_0 (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : ¬cond0_0 i) (hc1 : cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) (xs0 : Vec F S256x2048 .f32) (xs1 : Vec F S256x2048 .f32) (xs2 : Vec F S256x2048 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = k0_pay8 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

/-- The last visit of a head, key accumulator. -/
theorem last_1 (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : ¬cond0_0 i) (hc1 : cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) (xs0 : Vec F S256x2048 .f32) (xs1 : Vec F S256x2048 .f32) (xs2 : Vec F S256x2048 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = k0_pay9 x1 x4 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

/-- The last visit of a head, value accumulator. -/
theorem last_2 (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : ¬cond0_0 i) (hc1 : cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) (xs0 : Vec F S256x2048 .f32) (xs1 : Vec F S256x2048 .f32) (xs2 : Vec F S256x2048 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = k0_pay1 (k0_pay6 x1) (k0_pay7 x6) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

/-- The last visit of a head, output block: the attention of the three accumulators as the visit leaves them. -/
theorem last_out (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x2048x512 .f32) (harg8 : arg8.IsWhole) (arg9 : Memref sig .tc .vmem S1x1x2048 .f32) (harg9 : arg9.IsWhole) (arg10 : Memref sig .tc .vmem S1x256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (hc0 : ¬cond0_0 i) (hc1 : cond0_1 i) (x0 : Vec F S1x256x512 .bf16) (x1 : Vec F S1x256x512 .bf16) (x2 : Vec F S1x2048x512 .f32) (x3 : Vec F S1x1x2048 .f32) (x4 : Vec F S1x2048x512 .f32) (x5 : Vec F S1x1x2048 .f32) (x6 : Vec F S1x2048x512 .f32) (x7 : Vec F S1x1x2048 .f32) (xs0 : Vec F S256x2048 .f32) (xs1 : Vec F S256x2048 .f32) (xs2 : Vec F S256x2048 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2
      = k0_pay2 (k0_pay8 x0 x2 xs0) (k0_pay9 x1 x4 xs1) (k0_pay1 (k0_pay6 x1) (k0_pay7 x6) xs2) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  sl_unfold_words
  rw [View.canon_unit_zero hz3, View.readCov_unit_zero (S := S256x2048) _ hz2, View.readCov_unit_zero (S := S256x2048) _ hz2,
    View.readCov_unit_zero (S := S256x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x512) hz3, View.ld_unit_zero (S := S1x2048x512) hz3, View.ld_unit_zero (S := S1x1x2048) hz3, View.ld_unit_zero (S := S256x2048) hz2, View.ld_unit_zero (S := S1x256x2048) hz3]

end Cert.KernelIdeal.Pieces

end
-- ==== Proof.Visits.lean ====
/-
  The accumulators and the output block after each visit, stated through the body's pure terms.

  After the first visit of a head each accumulator holds the head's bias row repeated plus the visit's partial product;
  after a later visit, what the visit before left plus the visit's partial product; and after the last visit of a head the
  output block holds the attention of the three accumulators as that visit leaves them.
-/
import proofs.«110373_j63084479644164_2_alg».proof.Proof.Gen.KernelIdeal.Frame
import proofs.«110373_j63084479644164_2_alg».proof.Proof.Pieces
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Visits

open Cert.KernelIdeal Cert.KernelIdeal.Gen Cert.KernelIdeal.Pieces

variable {F : FTy → Type} [FloatOps F]
variable (m : (ℓ : Loc nD τ sig) → Buf (Elt F) ℓ)

/-- After the first visit of a head. -/
theorem after_first (c : Dev nD) (t : Fin cfg0.N) (h0 : t.val % 4 = 0) (h1 : ¬t.val % 4 = 3) :
    (outsAt0 m c t.val t.isLt).2.1 = k0_pay8 (iblk m c 0 t) (iblk m c 2 t) (k0_pay3 (iblk m c 3 t))
    ∧ (outsAt0 m c t.val t.isLt).2.2.1 = k0_pay9 (iblk m c 1 t) (iblk m c 4 t) (k0_pay4 (iblk m c 5 t))
    ∧ (outsAt0 m c t.val t.isLt).2.2.2 = k0_pay1 (k0_pay6 (iblk m c 1 t)) (k0_pay7 (iblk m c 6 t)) (k0_pay5 (iblk m c 7 t)) := by
  rw [outsAt0_A m c t h0 h1]
  dsimp only
  exact ⟨first_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t),
    first_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t),
    first_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)⟩

/-- After a later visit of a head: the accumulators of the visit before, each plus this visit's partial product. -/
theorem after_later (c : Dev nD) (t : Fin cfg0.N) (h0 : ¬t.val % 4 = 0) :
    (outsAt0 m c t.val t.isLt).2.1 = k0_pay8 (iblk m c 0 t) (iblk m c 2 t) (outsAt0 m c (t.val - 1) (Nat.lt_of_le_of_lt (Nat.sub_le _ _) t.isLt)).2.1
    ∧ (outsAt0 m c t.val t.isLt).2.2.1 = k0_pay9 (iblk m c 1 t) (iblk m c 4 t) (outsAt0 m c (t.val - 1) (Nat.lt_of_le_of_lt (Nat.sub_le _ _) t.isLt)).2.2.1
    ∧ (outsAt0 m c t.val t.isLt).2.2.2 = k0_pay1 (k0_pay6 (iblk m c 1 t)) (k0_pay7 (iblk m c 6 t)) (outsAt0 m c (t.val - 1) (Nat.lt_of_le_of_lt (Nat.sub_le _ _) t.isLt)).2.2.2 := by
  by_cases h1 : t.val % 4 = 3
  · rw [outsAt0_C m c t h0 h1]
    dsimp only
    exact ⟨last_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      last_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      last_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨middle_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      middle_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      middle_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- After the last visit of a head the output block is the attention of the three accumulators as the visit leaves them. -/
theorem after_last (c : Dev nD) (t : Fin cfg0.N) (h0 : ¬t.val % 4 = 0) (h1 : t.val % 4 = 3) :
    (outsAt0 m c t.val t.isLt).1
      = k0_pay2 (outsAt0 m c t.val t.isLt).2.1 (outsAt0 m c t.val t.isLt).2.2.1 (outsAt0 m c t.val t.isLt).2.2.2 := by
  rw [outsAt0_C m c t h0 h1]
  dsimp only
  refine (last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  rw [last_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, last_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, last_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

end Cert.KernelIdeal.Visits

end
-- ==== Proof.Blocks.lean ====
/-
  The blocks a visit is given, read off the whole arrays.

  The 32 visits run head by head: visit `t` works on head `t / 4` and on tile `t % 4` of the 2048 contracted positions.
  Its activation and weight blocks are the 512 columns `512 (t % 4) + i` of head `t / 4`'s rows; its bias blocks are
  head `t / 4`'s bias row whole.
-/
import proofs.«110373_j63084479644164_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- Where each window's block sits at visit `t`: head `t / 4`; tile `t % 4` for the tiled windows. -/
theorem block_index : ∀ t : Fin cfg0.N,
    (win0_0.index t (0 : Fin 3) = t.val / 4 ∧ win0_0.index t (1 : Fin 3) = 0 ∧ win0_0.index t (2 : Fin 3) = t.val % 4)
    ∧ (win0_1.index t (0 : Fin 3) = t.val / 4 ∧ win0_1.index t (1 : Fin 3) = 0 ∧ win0_1.index t (2 : Fin 3) = t.val % 4)
    ∧ (win0_2.index t (0 : Fin 3) = t.val / 4 ∧ win0_2.index t (1 : Fin 3) = 0 ∧ win0_2.index t (2 : Fin 3) = t.val % 4)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = t.val % 4)
    ∧ (win0_5.index t (0 : Fin 3) = t.val / 4 ∧ win0_5.index t (1 : Fin 3) = 0 ∧ win0_5.index t (2 : Fin 3) = 0)
    ∧ (win0_6.index t (0 : Fin 3) = t.val / 4 ∧ win0_6.index t (1 : Fin 3) = 0 ∧ win0_6.index t (2 : Fin 3) = t.val % 4)
    ∧ (win0_7.index t (0 : Fin 3) = t.val / 4 ∧ win0_7.index t (1 : Fin 3) = 0 ∧ win0_7.index t (2 : Fin 3) = 0)
    ∧ (win0_8.index t (0 : Fin 3) = t.val / 4 ∧ win0_8.index t (1 : Fin 3) = 0 ∧ win0_8.index t (2 : Fin 3) = 0) :=
  (by decide +kernel : ∀ t : Fin grid0.N, _)

/-- The head a visit works on, and a position of its tile among the 2048. -/
def headOf (t : Fin cfg0.N) : Fin 8 := ⟨t.val / 4, by have := t.isLt; have hN : cfg0.N = 32 := N_0; omega⟩
def tilePos (t : Fin cfg0.N) (i : Fin 512) : Fin 2048 := ⟨t.val % 4 * 512 + i.val, by have := i.isLt; omega⟩

/-- Window 0's block at visit `t`: rows of head `t / 4`, columns of tile `t % 4`. -/
theorem block0 (c : Dev nD) (t : Fin cfg0.N) (r : Fin 256) (i : Fin 512) :
    iblk m c 0 t (ix3 (0 : Fin 1) r i) = V m c main_v6 (ix3 (headOf t) r (tilePos t i)) := by
  unfold iblk
  rw [View.read_apply]
  show V m c main_v6 _ = V m c main_v6 _
  refine congrArg (V m c main_v6) (funext fun a => Fin.ext ?_)
  obtain ⟨e0, e1, e2, e3, e4, e5, e6, e7, e8⟩ := block_index t
  match a with
  | ⟨0, _⟩ => show win0_0.index t (0 : Fin 3) * 1 + 1 * 0 = t.val / 4; omega
  | ⟨1, _⟩ => show win0_0.index t (1 : Fin 3) * 256 + 1 * r.val = r.val; omega
  | ⟨2, _⟩ => show win0_0.index t (2 : Fin 3) * 512 + 1 * i.val = t.val % 4 * 512 + i.val; omega

/-- Window 1's block at visit `t`: rows of head `t / 4`, columns of tile `t % 4`. -/
theorem block1 (c : Dev nD) (t : Fin cfg0.N) (r : Fin 256) (i : Fin 512) :
    iblk m c 1 t (ix3 (0 : Fin 1) r i) = V m c main_v10 (ix3 (headOf t) r (tilePos t i)) := by
  unfold iblk
  rw [View.read_apply]
  show V m c main_v10 _ = V m c main_v10 _
  refine congrArg (V m c main_v10) (funext fun a => Fin.ext ?_)
  obtain ⟨e0, e1, e2, e3, e4, e5, e6, e7, e8⟩ := block_index t
  match a with
  | ⟨0, _⟩ => show win0_1.index t (0 : Fin 3) * 1 + 1 * 0 = t.val / 4; omega
  | ⟨1, _⟩ => show win0_1.index t (1 : Fin 3) * 256 + 1 * r.val = r.val; omega
  | ⟨2, _⟩ => show win0_1.index t (2 : Fin 3) * 512 + 1 * i.val = t.val % 4 * 512 + i.val; omega

/-- Window 2's block at visit `t`: rows of head `t / 4`, columns of tile `t % 4`. -/
theorem block2 (c : Dev nD) (t : Fin cfg0.N) (r : Fin 2048) (i : Fin 512) :
    iblk m c 2 t (ix3 (0 : Fin 1) r i) = V m c main_arg2 (ix3 (headOf t) r (tilePos t i)) := by
  unfold iblk
  rw [View.read_apply]
  show V m c main_arg2 _ = V m c main_arg2 _
  refine congrArg (V m c main_arg2) (funext fun a => Fin.ext ?_)
  obtain ⟨e0, e1, e2, e3, e4, e5, e6, e7, e8⟩ := block_index t
  match a with
  | ⟨0, _⟩ => show win0_2.index t (0 : Fin 3) * 1 + 1 * 0 = t.val / 4; omega
  | ⟨1, _⟩ => show win0_2.index t (1 : Fin 3) * 2048 + 1 * r.val = r.val; omega
  | ⟨2, _⟩ => show win0_2.index t (2 : Fin 3) * 512 + 1 * i.val = t.val % 4 * 512 + i.val; omega

/-- Window 3's block at visit `t`: the bias row of head `t / 4`. -/
theorem block3 (c : Dev nD) (t : Fin cfg0.N) (o : Fin 2048) :
    iblk m c 3 t (ix3 (0 : Fin 1) (0 : Fin 1) o) = V m c main_v0 (ix3 (headOf t) (0 : Fin 1) o) := by
  unfold iblk
  rw [View.read_apply]
  show V m c main_v0 _ = V m c main_v0 _
  refine congrArg (V m c main_v0) (funext fun a => Fin.ext ?_)
  obtain ⟨e0, e1, e2, e3, e4, e5, e6, e7, e8⟩ := block_index t
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 2048 + 1 * o.val = o.val; omega

/-- Window 4's block at visit `t`: rows of head `t / 4`, columns of tile `t % 4`. -/
theorem block4 (c : Dev nD) (t : Fin cfg0.N) (r : Fin 2048) (i : Fin 512) :
    iblk m c 4 t (ix3 (0 : Fin 1) r i) = V m c main_arg4 (ix3 (headOf t) r (tilePos t i)) := by
  unfold iblk
  rw [View.read_apply]
  show V m c main_arg4 _ = V m c main_arg4 _
  refine congrArg (V m c main_arg4) (funext fun a => Fin.ext ?_)
  obtain ⟨e0, e1, e2, e3, e4, e5, e6, e7, e8⟩ := block_index t
  match a with
  | ⟨0, _⟩ => show win0_4.index t (0 : Fin 3) * 1 + 1 * 0 = t.val / 4; omega
  | ⟨1, _⟩ => show win0_4.index t (1 : Fin 3) * 2048 + 1 * r.val = r.val; omega
  | ⟨2, _⟩ => show win0_4.index t (2 : Fin 3) * 512 + 1 * i.val = t.val % 4 * 512 + i.val; omega

/-- Window 5's block at visit `t`: the bias row of head `t / 4`. -/
theorem block5 (c : Dev nD) (t : Fin cfg0.N) (o : Fin 2048) :
    iblk m c 5 t (ix3 (0 : Fin 1) (0 : Fin 1) o) = V m c main_v1 (ix3 (headOf t) (0 : Fin 1) o) := by
  unfold iblk
  rw [View.read_apply]
  show V m c main_v1 _ = V m c main_v1 _
  refine congrArg (V m c main_v1) (funext fun a => Fin.ext ?_)
  obtain ⟨e0, e1, e2, e3, e4, e5, e6, e7, e8⟩ := block_index t
  match a with
  | ⟨0, _⟩ => show win0_5.index t (0 : Fin 3) * 1 + 1 * 0 = t.val / 4; omega
  | ⟨1, _⟩ => show win0_5.index t (1 : Fin 3) * 1 + 1 * 0 = 0; omega
  | ⟨2, _⟩ => show win0_5.index t (2 : Fin 3) * 2048 + 1 * o.val = o.val; omega

/-- Window 6's block at visit `t`: rows of head `t / 4`, columns of tile `t % 4`. -/
theorem block6 (c : Dev nD) (t : Fin cfg0.N) (r : Fin 2048) (i : Fin 512) :
    iblk m c 6 t (ix3 (0 : Fin 1) r i) = V m c main_arg6 (ix3 (headOf t) r (tilePos t i)) := by
  unfold iblk
  rw [View.read_apply]
  show V m c main_arg6 _ = V m c main_arg6 _
  refine congrArg (V m c main_arg6) (funext fun a => Fin.ext ?_)
  obtain ⟨e0, e1, e2, e3, e4, e5, e6, e7, e8⟩ := block_index t
  match a with
  | ⟨0, _⟩ => show win0_6.index t (0 : Fin 3) * 1 + 1 * 0 = t.val / 4; omega
  | ⟨1, _⟩ => show win0_6.index t (1 : Fin 3) * 2048 + 1 * r.val = r.val; omega
  | ⟨2, _⟩ => show win0_6.index t (2 : Fin 3) * 512 + 1 * i.val = t.val % 4 * 512 + i.val; omega

/-- Window 7's block at visit `t`: the bias row of head `t / 4`. -/
theorem block7 (c : Dev nD) (t : Fin cfg0.N) (o : Fin 2048) :
    iblk m c 7 t (ix3 (0 : Fin 1) (0 : Fin 1) o) = V m c main_v2 (ix3 (headOf t) (0 : Fin 1) o) := by
  unfold iblk
  rw [View.read_apply]
  show V m c main_v2 _ = V m c main_v2 _
  refine congrArg (V m c main_v2) (funext fun a => Fin.ext ?_)
  obtain ⟨e0, e1, e2, e3, e4, e5, e6, e7, e8⟩ := block_index t
  match a with
  | ⟨0, _⟩ => show win0_7.index t (0 : Fin 3) * 1 + 1 * 0 = t.val / 4; omega
  | ⟨1, _⟩ => show win0_7.index t (1 : Fin 3) * 1 + 1 * 0 = 0; omega
  | ⟨2, _⟩ => show win0_7.index t (2 : Fin 3) * 2048 + 1 * o.val = o.val; omega

end Cert.KernelIdeal.Blocks

end
-- ==== Proof.Spec.lean ====
/-
  The mathematics both programs compute, for one head, over the extended reals.

  A row of 2048 numbers is read as 64 tokens of 32 channels: position `col q d = 32 q + d`.
  * `lin x w b` is the affine map of a row: entry `o` of row `r` is `(∑ i, x r i * w o i) + b o`.
  * `score Q K r q k` is the inner product of token `q` of `Q`'s row `r` with token `k` of `K`'s row `r`.
  * The softmax is taken over the QUERY token `q` (for each key token `k`): `colMax` is the largest score of a key's column,
    `expo` the exponential of the score less that maximum, `den` the column's sum of exponentials.
  * `attend Q K V r q d` is `(∑ k, (expo q k / den k) * V r (col k d)) * scale`.
  The two literal words (minus infinity, the scale 0.176776692) are kept as words: both programs carry the same ones.
-/
import Idealize.ShloMosaic.PureOps.Ideal
import Idealize.ShloMosaic.Lib.ValueIdx

noncomputable section

namespace Cert.Spec

open Idealize.ShloMosaic

/-- Position of channel `d` of token `q` in a row of 64 tokens of 32 channels. -/
def col (q : Fin 64) (d : Fin 32) : Fin 2048 := ⟨q.val * 32 + d.val, by have := q.isLt; have := d.isLt; omega⟩

/-- The token a position belongs to, and its channel. -/
def tok (j : Fin 2048) : Fin 64 := ⟨j.val / 32, by have := j.isLt; omega⟩
def chan (j : Fin 2048) : Fin 32 := ⟨j.val % 32, Nat.mod_lt _ (by decide)⟩

theorem col_tok_chan (j : Fin 2048) : col (tok j) (chan j) = j :=
  Fin.ext (by show j.val / 32 * 32 + j.val % 32 = j.val; omega)

theorem tok_col (q : Fin 64) (d : Fin 32) : tok (col q d) = q :=
  Fin.ext (by show (q.val * 32 + d.val) / 32 = q.val; have := d.isLt; omega)

theorem chan_col (q : Fin 64) (d : Fin 32) : chan (col q d) = d :=
  Fin.ext (by show (q.val * 32 + d.val) % 32 = d.val; have := d.isLt; omega)

/-- The word for minus infinity both programs start their maximum from. -/
abbrev negInf : EReal := Ideal.ofBits .f32 0xFF800000#32
/-- The word both programs scale the result by. -/
abbrev scale : EReal := Ideal.ofBits .f32 0x3E3504F3#32

/-- The affine map of a row. -/
def lin (x : Fin 256 → Fin 2048 → EReal) (w : Fin 2048 → Fin 2048 → EReal) (b : Fin 2048 → EReal)
    (r : Fin 256) (o : Fin 2048) : EReal :=
  (∑ i : Fin 2048, x r i * w o i) + b o

/-- Inner product of query token `q` with key token `k`, in row `r`. -/
def score (Q K : Fin 256 → Fin 2048 → EReal) (r : Fin 256) (q k : Fin 64) : EReal :=
  ∑ d : Fin 32, Q r (col q d) * K r (col k d)

/-- The largest score of key token `k` over the query tokens. -/
def colMax (Q K : Fin 256 → Fin 2048 → EReal) (r : Fin 256) (k : Fin 64) : EReal :=
  (Finset.univ : Finset (Fin 64)).fold max negInf fun q => score Q K r q k

def expo (Q K : Fin 256 → Fin 2048 → EReal) (r : Fin 256) (q k : Fin 64) : EReal :=
  Ideal.exp (score Q K r q k - colMax Q K r k)

def den (Q K : Fin 256 → Fin 2048 → EReal) (r : Fin 256) (k : Fin 64) : EReal :=
  ∑ q : Fin 64, expo Q K r q k

/-- Attention with the softmax over the query tokens, scaled. -/
def attend (Q K V : Fin 256 → Fin 2048 → EReal) (r : Fin 256) (q : Fin 64) (d : Fin 32) : EReal :=
  (∑ k : Fin 64, Ideal.div (expo Q K r q k) (den Q K r k) * V r (col k d)) * scale

end Cert.Spec

end
-- ==== Proof.LibSumLayout.lean ====
/-
  Sums read at an index given by coordinates, over the extended reals, and sums over all the indices of a small array.
    * a sum along the middle axis of an `[a, b, c]` array, read at `(r, l)`, is the sum over `g` of the entries `(r, g, l)`
      (what summing the lane groups of a row regrouped as `b` groups of `c` lanes comes to);
    * a sum over all the indices of a vector `[n]` is the sum over its coordinate;
    * a sum over all the indices of a column `[n, 1]` is the sum over the rows of the entries `(p, 0)`.
  General in the extents; the reduction's side conditions are variables, so that whatever proofs a program's text
  carries unify with them.
-/
import Idealize.ShloMosaic.Lib.ValueIdx
import Idealize.ShloMosaic.PureOps.Ideal.Laws

namespace Cert.Lib.SumLayout

open Idealize.ShloMosaic Idealize.ShloMosaic.ValueIdx

/-- A sum along the middle axis, read at `(r, l)`. -/
theorem sum_axis1_of3_apply {a b c : ℕ} (v : FVec Ideal ⟨3, ![a, b, c]⟩ .f32) (acc : BitVec 32)
    (h : (⟨3, ![a, b, c]⟩ : Shape).Reduces [1] ⟨2, ![a, c]⟩) (hφ : FKind.Formats .f32) (hacc : acc = FKind.add.neutral .f32 hφ)
    (r : Fin a) (l : Fin c) :
    multiReduction .add [1] ⟨2, ![a, c]⟩ v acc h hφ hacc (ix2 r l) = ∑ g : Fin b, v (ix3 r g l) := by
  refine (Ideal.multiReduction_add_single v acc h hφ hacc (ix2 r l)).trans ?_
  refine Finset.sum_congr rfl fun g _ => congrArg v (funext fun d => ?_)
  match d with
  | ⟨0, _⟩ => rfl
  | ⟨1, _⟩ => rfl
  | ⟨2, _⟩ => rfl

/-- A sum over the indices of a vector is the sum over its coordinate. -/
theorem sum_idx1 {M : Type*} [AddCommMonoid M] {n : ℕ} (f : (⟨1, ![n]⟩ : Shape).Idx → M) : ∑ j, f j = ∑ p : Fin n, f (ix1 p) :=
  Fintype.sum_equiv ⟨fun j => j 0, fun p => ix1 p, fun j => (eq_ix1 j).symm, fun p => rfl⟩ _ _ fun j => congrArg f (eq_ix1 j)

/-- A sum over the indices of a column is the sum over its rows. -/
theorem sum_idx_col {M : Type*} [AddCommMonoid M] {n : ℕ} (f : (⟨2, ![n, 1]⟩ : Shape).Idx → M) :
    ∑ j, f j = ∑ p : Fin n, f (ix2 p (0 : Fin 1)) := by
  rw [sum_idx2]
  exact Finset.sum_congr rfl fun p _ => Fin.sum_univ_one _

end Cert.Lib.SumLayout
-- ==== Proof.Payloads.lean ====
/-
  The kernel body's pure payloads, read at an index, over the extended reals.

  * The three bias payloads cast a [1, 1, 2048] block to one row and repeat that row down 256 rows: entry (r, o) is the
    block's entry o.
  * The three accumulation payloads add to an accumulator the product of a [256, 512] tile with the transpose of a
    [2048, 512] tile: entry (r, o) gains the sum over i of x(r, i) * w(o, i). The narrowing of the second factor to
    sixteen bits is the identity on the extended reals, and the leading unit axis of each block is dropped by a cast that
    keeps the row-major position.
  * The epilogue payload regroups each row of 2048 numbers as 64 tokens of 32 channels (position 32 q + d), takes the
    inner products of the tokens of two such rows, normalises them by a softmax over the FIRST token index (for each
    second one), applies the weights to the tokens of a third row, scales by one word, and puts the rows back.
-/
import proofs.«110373_j63084479644164_2_alg».proof.Proof.Gen.KernelIdeal.Skeleton
import proofs.«110373_j63084479644164_2_alg».proof.Proof.Spec
import proofs.«110373_j63084479644164_2_alg».proof.Proof.LibSumLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-! ## The biases -/

/-- A [1, 1, n] block cast to one row and repeated down `a` rows reads, at (r, o), the block's entry o. -/
theorem bias_apply {a n : ℕ} (b : (⟨3, ![1, 1, n]⟩ : Shape).Idx → EReal)
    (h1 : (⟨3, ![1, 1, n]⟩ : Shape).ShapeCasts ⟨2, ![1, n]⟩) (h2 : (⟨2, ![1, n]⟩ : Shape).ShapeCasts ⟨2, ![1, n]⟩)
    (hb : (⟨2, ![1, n]⟩ : Shape).Broadcasts ⟨2, ![a, n]⟩) (h3 : (⟨2, ![a, n]⟩ : Shape).ShapeCasts ⟨2, ![a, n]⟩)
    (r : Fin a) (o : Fin n) :
    shapeCast ⟨2, ![a, n]⟩ (broadcastTo ⟨2, ![a, n]⟩ (shapeCast ⟨2, ![1, n]⟩ (shapeCast ⟨2, ![1, n]⟩ b h1) h2) hb) h3 (ix2 r o)
      = b (ix3 (0 : Fin 1) (0 : Fin 1) o) := by
  rw [shapeCast_self, shapeCast_self]
  refine (broadcastTo_1b_ab_apply _ hb r o).trans ?_
  exact shapeCast_1ab_ab_apply b h1 (0 : Fin 1) o

theorem bias3 (b : Vec Ideal S1x1x2048 .f32) (r : Fin 256) (o : Fin 2048) :
    k0_pay3 (F := Ideal) b (ix2 r o) = b (ix3 (0 : Fin 1) (0 : Fin 1) o) := by
  unfold k0_pay3
  exact bias_apply b _ _ _ _ r o

theorem bias4 (b : Vec Ideal S1x1x2048 .f32) (r : Fin 256) (o : Fin 2048) :
    k0_pay4 (F := Ideal) b (ix2 r o) = b (ix3 (0 : Fin 1) (0 : Fin 1) o) := by
  unfold k0_pay4
  exact bias_apply b _ _ _ _ r o

theorem bias5 (b : Vec Ideal S1x1x2048 .f32) (r : Fin 256) (o : Fin 2048) :
    k0_pay5 (F := Ideal) b (ix2 r o) = b (ix3 (0 : Fin 1) (0 : Fin 1) o) := by
  unfold k0_pay5
  exact bias_apply b _ _ _ _ r o

/-! ## The accumulations -/

section Rows

theorem rows_lhs0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide),
    dif_pos (show (0 : Fin S256x512.rank) ∈ dot_S256x512_S2048x512_S256x2048_1_1_0_0_n_n.lhsNonContracting by decide)]
  rfl
theorem rows_lhs1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rows_rhs0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide),
    dif_pos (show (0 : Fin S2048x512.rank) ∈ dot_S256x512_S2048x512_S256x2048_1_1_0_0_n_n.rhsNonContracting by decide)]
  rfl
theorem rows_rhs1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

end Rows

/-- The product of a [256, 512] tile with the transpose of a [2048, 512] tile, into zero, at (r, o): the sum over the
    shared axis of the products of row r of the first with row o of the second. -/
theorem matmul_rows_apply {φ₁ φ₂ : FTy} (lhs : FVec Ideal S256x512 φ₁) (rhs : FVec Ideal S2048x512 φ₂)
    (r : Fin 256) (o : Fin 2048) :
    matmul dot_S256x512_S2048x512_S256x2048_1_1_0_0_n_n none lhs rhs (constant (F := Ideal) S256x2048 .f32 0x00000000#32) (ix2 r o)
      = ∑ i : Fin 512, lhs (ix2 r i) * rhs (ix2 o i) := by
  simp only [matmul]
  rw [Ideal.matmul_constant_zero_apply,
    ← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 r o)
      ((contrEquiv1 dot_S256x512_S2048x512_S256x2048_1_1_0_0_n_n 512 rfl rfl).symm k) = ix2 r k :=
    funext fun a => Fin.ext (by
      match a with
      | ⟨0, _⟩ => exact rows_lhs0 _ _
      | ⟨1, _⟩ => exact (rows_lhs1 _ _).trans hk)
  have er : dot_S256x512_S2048x512_S256x2048_1_1_0_0_n_n.rhsIdx (ix2 r o)
      ((contrEquiv1 dot_S256x512_S2048x512_S256x2048_1_1_0_0_n_n 512 rfl rfl).symm k) = ix2 o k :=
    funext fun a => Fin.ext (by
      match a with
      | ⟨0, _⟩ => exact rows_rhs0 _ _
      | ⟨1, _⟩ => exact (rows_rhs1 _ _).trans hk)
  rw [el, er]

theorem accum8 (x : Vec Ideal S1x256x512 .bf16) (w : Vec Ideal S1x2048x512 .f32) (acc : Vec Ideal S256x2048 .f32)
    (r : Fin 256) (o : Fin 2048) :
    k0_pay8 (F := Ideal) x w acc (ix2 r o)
      = acc (ix2 r o) + ∑ i : Fin 512, x (ix3 (0 : Fin 1) r i) * w (ix3 (0 : Fin 1) o i) := by
  unfold k0_pay8
  rw [shapeCast_self]
  refine (addf_apply _ _ _).trans (congrArg (acc (ix2 r o) + ·) ?_)
  refine (matmul_rows_apply _ _ r o).trans (Finset.sum_congr rfl fun i _ => ?_)
  rw [truncf_apply, shapeCast_1ab_ab_apply, shapeCast_1ab_ab_apply]

theorem accum9 (x : Vec Ideal S1x256x512 .bf16) (w : Vec Ideal S1x2048x512 .f32) (acc : Vec Ideal S256x2048 .f32)
    (r : Fin 256) (o : Fin 2048) :
    k0_pay9 (F := Ideal) x w acc (ix2 r o)
      = acc (ix2 r o) + ∑ i : Fin 512, x (ix3 (0 : Fin 1) r i) * w (ix3 (0 : Fin 1) o i) := by
  unfold k0_pay9 k0_pay6
  rw [shapeCast_self]
  refine (addf_apply _ _ _).trans (congrArg (acc (ix2 r o) + ·) ?_)
  refine (matmul_rows_apply _ _ r o).trans (Finset.sum_congr rfl fun i _ => ?_)
  rw [truncf_apply, shapeCast_1ab_ab_apply, shapeCast_1ab_ab_apply]

theorem accum1 (x : Vec Ideal S1x256x512 .bf16) (w : Vec Ideal S1x2048x512 .f32) (acc : Vec Ideal S256x2048 .f32)
    (r : Fin 256) (o : Fin 2048) :
    k0_pay1 (F := Ideal) (k0_pay6 (F := Ideal) x) (k0_pay7 (F := Ideal) w) acc (ix2 r o)
      = acc (ix2 r o) + ∑ i : Fin 512, x (ix3 (0 : Fin 1) r i) * w (ix3 (0 : Fin 1) o i) := by
  unfold k0_pay1 k0_pay6 k0_pay7
  rw [shapeCast_self]
  refine (addf_apply _ _ _).trans (congrArg (acc (ix2 r o) + ·) ?_)
  refine (matmul_rows_apply _ _ r o).trans (Finset.sum_congr rfl fun i _ => ?_)
  rw [truncf_apply, shapeCast_1ab_ab_apply, shapeCast_1ab_ab_apply]

/-! ## The epilogue: one lemma for each operation that moves or combines entries -/

/-- A row of 2048 numbers regrouped as 64 tokens of 32 channels: entry (r, q, d) is the row's entry 32 q + d. -/
theorem split_apply {α : Type} (X : S256x2048.Idx → α) (h : S256x2048.ShapeCasts S256x64x32)
    (r : Fin 256) (q : Fin 64) (d : Fin 32) :
    shapeCast S256x64x32 X h (ix3 r q d) = X (ix2 r (Cert.Spec.col q d)) :=
  shapeCast_apply X h _ _ (by
    rw [Shape.rowMajor_val_two, Shape.rowMajor_val_three]
    show r.val * 2048 + (q.val * 32 + d.val) = (r.val * 64 + q.val) * 32 + d.val
    omega)

/-- The tokens put back in a row: entry 32 q + d of row r is the entry (r, q, d). -/
theorem merge_apply {α : Type} (Y : S256x64x32.Idx → α) (h : S256x64x32.ShapeCasts S256x2048)
    (r : Fin 256) (q : Fin 64) (d : Fin 32) :
    shapeCast S256x2048 Y h (ix2 r (Cert.Spec.col q d)) = Y (ix3 r q d) :=
  shapeCast_apply Y h _ _ (by
    rw [Shape.rowMajor_val_two, Shape.rowMajor_val_three]
    show (r.val * 64 + q.val) * 32 + d.val = r.val * 2048 + (q.val * 32 + d.val)
    omega)

section Scores

theorem scores_lhs0 (i : S256x64x64.Idx) (q : dot_S256x64x32_S256x64x32_S256x64x64_2_2_1_1_0_0.contr.Idx) :
    (dot_S256x64x32_S256x64x32_S256x64x64_2_2_1_1_0_0.lhsIdx i q 0).val = (i 0).val := by
  unfold DotDims.lhsIdx
  rw [dif_pos (show (0 : Fin S256x64x32.rank) ∈ dot_S256x64x32_S256x64x32_S256x64x64_2_2_1_1_0_0.lhsBatch by decide)]
  rfl
theorem scores_lhs1 (i : S256x64x64.Idx) (q : dot_S256x64x32_S256x64x32_S256x64x64_2_2_1_1_0_0.contr.Idx) :
    (dot_S256x64x32_S256x64x32_S256x64x64_2_2_1_1_0_0.lhsIdx i q 1).val = (i 1).val := by
  unfold DotDims.lhsIdx
  rw [dif_neg (show ¬(1 : Fin S256x64x32.rank) ∈ dot_S256x64x32_S256x64x32_S256x64x64_2_2_1_1_0_0.lhsBatch by decide),
    dif_pos (show (1 : Fin S256x64x32.rank) ∈ dot_S256x64x32_S256x64x32_S256x64x64_2_2_1_1_0_0.lhsNonContracting by decide)]
  rfl
theorem scores_lhs2 (i : S256x64x64.Idx) (q : dot_S256x64x32_S256x64x32_S256x64x64_2_2_1_1_0_0.contr.Idx) :
    (dot_S256x64x32_S256x64x32_S256x64x64_2_2_1_1_0_0.lhsIdx i q 2).val = (q ⟨0, by decide⟩).val :=
  dot_S256x64x32_S256x64x32_S256x64x64_2_2_1_1_0_0.lhsIdx_val_of_single rfl i q
theorem scores_rhs0 (i : S256x64x64.Idx) (q : dot_S256x64x32_S256x64x32_S256x64x64_2_2_1_1_0_0.contr.Idx) :
    (dot_S256x64x32_S256x64x32_S256x64x64_2_2_1_1_0_0.rhsIdx i q 0).val = (i 0).val := by
  unfold DotDims.rhsIdx
  rw [dif_pos (show (0 : Fin S256x64x32.rank) ∈ dot_S256x64x32_S256x64x32_S256x64x64_2_2_1_1_0_0.rhsBatch by decide)]
  rfl
theorem scores_rhs1 (i : S256x64x64.Idx) (q : dot_S256x64x32_S256x64x32_S256x64x64_2_2_1_1_0_0.contr.Idx) :
    (dot_S256x64x32_S256x64x32_S256x64x64_2_2_1_1_0_0.rhsIdx i q 1).val = (i 2).val := by
  unfold DotDims.rhsIdx
  rw [dif_neg (show ¬(1 : Fin S256x64x32.rank) ∈ dot_S256x64x32_S256x64x32_S256x64x64_2_2_1_1_0_0.rhsBatch by decide),
    dif_pos (show (1 : Fin S256x64x32.rank) ∈ dot_S256x64x32_S256x64x32_S256x64x64_2_2_1_1_0_0.rhsNonContracting by decide)]
  rfl
theorem scores_rhs2 (i : S256x64x64.Idx) (q : dot_S256x64x32_S256x64x32_S256x64x64_2_2_1_1_0_0.contr.Idx) :
    (dot_S256x64x32_S256x64x32_S256x64x64_2_2_1_1_0_0.rhsIdx i q 2).val = (q ⟨0, by decide⟩).val :=
  dot_S256x64x32_S256x64x32_S256x64x64_2_2_1_1_0_0.rhsIdx_val_of_single rfl i q

/-- The inner products of the tokens of two regrouped rows, row by row: entry (r, q, k) is the sum over the channels of
    the products of token q of the first with token k of the second. -/
theorem scores_apply (lhs rhs : FVec Ideal S256x64x32 .f32) (r : Fin 256) (q k : Fin 64) :
    matmul dot_S256x64x32_S256x64x32_S256x64x64_2_2_1_1_0_0 none lhs rhs (constant (F := Ideal) S256x64x64 .f32 0x00000000#32) (ix3 r q k)
      = ∑ d : Fin 32, lhs (ix3 r q d) * rhs (ix3 r k d) := by
  simp only [matmul]
  rw [Ideal.matmul_constant_zero_apply,
    ← Equiv.sum_comp (contrEquiv1 dot_S256x64x32_S256x64x32_S256x64x64_2_2_1_1_0_0 32 rfl rfl).symm]
  refine Finset.sum_congr rfl fun d _ => ?_
  have hd := contrEquiv1_symm_val dot_S256x64x32_S256x64x32_S256x64x64_2_2_1_1_0_0 32 rfl rfl d
  have el : dot_S256x64x32_S256x64x32_S256x64x64_2_2_1_1_0_0.lhsIdx (ix3 r q k)
      ((contrEquiv1 dot_S256x64x32_S256x64x32_S256x64x64_2_2_1_1_0_0 32 rfl rfl).symm d) = ix3 r q d :=
    funext fun a => Fin.ext (by
      match a with
      | ⟨0, _⟩ => exact scores_lhs0 _ _
      | ⟨1, _⟩ => exact scores_lhs1 _ _
      | ⟨2, _⟩ => exact (scores_lhs2 _ _).trans hd)
  have er : dot_S256x64x32_S256x64x32_S256x64x64_2_2_1_1_0_0.rhsIdx (ix3 r q k)
      ((contrEquiv1 dot_S256x64x32_S256x64x32_S256x64x64_2_2_1_1_0_0 32 rfl rfl).symm d) = ix3 r k d :=
    funext fun a => Fin.ext (by
      match a with
      | ⟨0, _⟩ => exact scores_rhs0 _ _
      | ⟨1, _⟩ => exact scores_rhs1 _ _
      | ⟨2, _⟩ => exact (scores_rhs2 _ _).trans hd)
  rw [el, er]

end Scores

section Weighted

theorem weighted_lhs0 (i : S256x64x32.Idx) (q : dot_S256x64x64_S256x64x32_S256x64x32_2_1_1_2_0_0.contr.Idx) :
    (dot_S256x64x64_S256x64x32_S256x64x32_2_1_1_2_0_0.lhsIdx i q 0).val = (i 0).val := by
  unfold DotDims.lhsIdx
  rw [dif_pos (show (0 : Fin S256x64x64.rank) ∈ dot_S256x64x64_S256x64x32_S256x64x32_2_1_1_2_0_0.lhsBatch by decide)]
  rfl
theorem weighted_lhs1 (i : S256x64x32.Idx) (q : dot_S256x64x64_S256x64x32_S256x64x32_2_1_1_2_0_0.contr.Idx) :
    (dot_S256x64x64_S256x64x32_S256x64x32_2_1_1_2_0_0.lhsIdx i q 1).val = (i 1).val := by
  unfold DotDims.lhsIdx
  rw [dif_neg (show ¬(1 : Fin S256x64x64.rank) ∈ dot_S256x64x64_S256x64x32_S256x64x32_2_1_1_2_0_0.lhsBatch by decide),
    dif_pos (show (1 : Fin S256x64x64.rank) ∈ dot_S256x64x64_S256x64x32_S256x64x32_2_1_1_2_0_0.lhsNonContracting by decide)]
  rfl
theorem weighted_lhs2 (i : S256x64x32.Idx) (q : dot_S256x64x64_S256x64x32_S256x64x32_2_1_1_2_0_0.contr.Idx) :
    (dot_S256x64x64_S256x64x32_S256x64x32_2_1_1_2_0_0.lhsIdx i q 2).val = (q ⟨0, by decide⟩).val :=
  dot_S256x64x64_S256x64x32_S256x64x32_2_1_1_2_0_0.lhsIdx_val_of_single rfl i q
theorem weighted_rhs0 (i : S256x64x32.Idx) (q : dot_S256x64x64_S256x64x32_S256x64x32_2_1_1_2_0_0.contr.Idx) :
    (dot_S256x64x64_S256x64x32_S256x64x32_2_1_1_2_0_0.rhsIdx i q 0).val = (i 0).val := by
  unfold DotDims.rhsIdx
  rw [dif_pos (show (0 : Fin S256x64x32.rank) ∈ dot_S256x64x64_S256x64x32_S256x64x32_2_1_1_2_0_0.rhsBatch by decide)]
  rfl
theorem weighted_rhs1 (i : S256x64x32.Idx) (q : dot_S256x64x64_S256x64x32_S256x64x32_2_1_1_2_0_0.contr.Idx) :
    (dot_S256x64x64_S256x64x32_S256x64x32_2_1_1_2_0_0.rhsIdx i q 1).val = (q ⟨0, by decide⟩).val :=
  dot_S256x64x64_S256x64x32_S256x64x32_2_1_1_2_0_0.rhsIdx_val_of_single rfl i q
theorem weighted_rhs2 (i : S256x64x32.Idx) (q : dot_S256x64x64_S256x64x32_S256x64x32_2_1_1_2_0_0.contr.Idx) :
    (dot_S256x64x64_S256x64x32_S256x64x32_2_1_1_2_0_0.rhsIdx i q 2).val = (i 2).val := by
  unfold DotDims.rhsIdx
  rw [dif_neg (show ¬(2 : Fin S256x64x32.rank) ∈ dot_S256x64x64_S256x64x32_S256x64x32_2_1_1_2_0_0.rhsBatch by decide),
    dif_pos (show (2 : Fin S256x64x32.rank) ∈ dot_S256x64x64_S256x64x32_S256x64x32_2_1_1_2_0_0.rhsNonContracting by decide)]
  rfl

/-- The weights applied to the tokens of a regrouped row, row by row: entry (r, q, d) is the sum over the tokens k of
    weight (r, q, k) times channel d of token k. -/
theorem weighted_apply (lhs : FVec Ideal S256x64x64 .f32) (rhs : FVec Ideal S256x64x32 .f32)
    (r : Fin 256) (q : Fin 64) (d : Fin 32) :
    matmul dot_S256x64x64_S256x64x32_S256x64x32_2_1_1_2_0_0 none lhs rhs (constant (F := Ideal) S256x64x32 .f32 0x00000000#32) (ix3 r q d)
      = ∑ k : Fin 64, lhs (ix3 r q k) * rhs (ix3 r k d) := by
  simp only [matmul]
  rw [Ideal.matmul_constant_zero_apply,
    ← Equiv.sum_comp (contrEquiv1 dot_S256x64x64_S256x64x32_S256x64x32_2_1_1_2_0_0 64 rfl rfl).symm]
  refine Finset.sum_congr rfl fun k _ => ?_
  have hk := contrEquiv1_symm_val dot_S256x64x64_S256x64x32_S256x64x32_2_1_1_2_0_0 64 rfl rfl k
  have el : dot_S256x64x64_S256x64x32_S256x64x32_2_1_1_2_0_0.lhsIdx (ix3 r q d)
      ((contrEquiv1 dot_S256x64x64_S256x64x32_S256x64x32_2_1_1_2_0_0 64 rfl rfl).symm k) = ix3 r q k :=
    funext fun a => Fin.ext (by
      match a with
      | ⟨0, _⟩ => exact weighted_lhs0 _ _
      | ⟨1, _⟩ => exact weighted_lhs1 _ _
      | ⟨2, _⟩ => exact (weighted_lhs2 _ _).trans hk)
  have er : dot_S256x64x64_S256x64x32_S256x64x32_2_1_1_2_0_0.rhsIdx (ix3 r q d)
      ((contrEquiv1 dot_S256x64x64_S256x64x32_S256x64x32_2_1_1_2_0_0 64 rfl rfl).symm k) = ix3 r k d :=
    funext fun a => Fin.ext (by
      match a with
      | ⟨0, _⟩ => exact weighted_rhs0 _ _
      | ⟨1, _⟩ => exact (weighted_rhs1 _ _).trans hk
      | ⟨2, _⟩ => exact weighted_rhs2 _ _)
  rw [el, er]

end Weighted

/-- The largest entry of each column of each [64, 64] block, from a starting word: at (r, k), the maximum over the first
    token index q of the entries (r, q, k), folded from the word's value. -/
theorem colmax_apply (v : FVec Ideal S256x64x64 .f32) (acc : BitVec 32)
    (h : S256x64x64.Reduces [1] S256x64) (hφ : FKind.Formats .f32) (hacc : acc = FKind.maximumf.neutral .f32 hφ)
    (r : Fin 256) (k : Fin 64) :
    multiReduction .maximumf [1] S256x64 v acc h hφ hacc (ix2 r k)
      = (Finset.univ : Finset (Fin 64)).fold max (Ideal.ofBits .f32 acc) fun q => v (ix3 r q k) := by
  refine (Ideal.multiReduction_maximumf_single v acc h hφ hacc (ix2 r k)).trans ?_
  have hf : (v ∘ h.lift (ix2 r k)) = fun q : Fin 64 => v (ix3 r q k) :=
    funext fun q => congrArg v (funext fun c => by
      match c with
      | ⟨0, _⟩ => rfl
      | ⟨1, _⟩ => rfl
      | ⟨2, _⟩ => rfl)
  exact congrArg (fun f => Finset.fold max (Ideal.ofBits .f32 acc) f (Finset.univ : Finset (Fin 64))) hf

/-- A [256, 64] array given a unit middle axis and repeated along it 64 times reads, at (r, q, k), its entry (r, k). -/
theorem keep_apply {α : Type} (m : S256x64.Idx → α) (h1 : S256x64.ShapeCasts S256x1x64)
    (h2 : S256x1x64.Broadcasts S256x64x64) (r : Fin 256) (q k : Fin 64) :
    broadcastTo S256x64x64 (shapeCast S256x1x64 m h1) h2 (ix3 r q k) = m (ix2 r k) := by
  refine (broadcastTo_apply _ h2 (ix3 r q k) (ix3 r (0 : Fin 1) k) fun ax => ?_).trans ?_
  · match ax with
    | ⟨0, _⟩ => rfl
    | ⟨1, _⟩ => rfl
    | ⟨2, _⟩ => rfl
  · exact shapeCast_apply m h1 _ _ (by
      rw [Shape.rowMajor_val_two, Shape.rowMajor_val_three]
      show r.val * 64 + k.val = (r.val * 1 + 0) * 64 + k.val
      omega)

/-! ## The epilogue assembled -/

/-- The scores of two rows' tokens are the specification's. -/
theorem score_apply (Q K : FVec Ideal S256x2048 .f32) (hq hk : S256x2048.ShapeCasts S256x64x32)
    (r : Fin 256) (q k : Fin 64) :
    matmul dot_S256x64x32_S256x64x32_S256x64x64_2_2_1_1_0_0 none (shapeCast S256x64x32 Q hq) (shapeCast S256x64x32 K hk)
        (constant (F := Ideal) S256x64x64 .f32 0x00000000#32) (ix3 r q k)
      = Cert.Spec.score (fun r o => Q (ix2 r o)) (fun r o => K (ix2 r o)) r q k := by
  refine (scores_apply _ _ r q k).trans ?_
  unfold Cert.Spec.score
  refine Finset.sum_congr rfl fun d _ => ?_
  rw [split_apply, split_apply]

/-- The exponential of a score less its column's maximum: an array whose entries (r, q, k) are `sc q k`, less the
    column maxima (from the starting word) kept along the first token index, exponentiated. -/
theorem expo_apply (S : FVec Ideal S256x64x64 .f32) (sc : Fin 64 → Fin 64 → EReal) (r : Fin 256)
    (hS : ∀ q k, S (ix3 r q k) = sc q k)
    (hr : S256x64x64.Reduces [1] S256x64) (hφ : FKind.Formats .f32)
    (hacc : (0xFF800000#32 : BitVec 32) = FKind.maximumf.neutral .f32 hφ)
    (h1 : S256x64.ShapeCasts S256x1x64) (h2 : S256x1x64.Broadcasts S256x64x64) (q k : Fin 64) :
    exp (subf S (broadcastTo S256x64x64
        (shapeCast S256x1x64 (multiReduction .maximumf [1] S256x64 S 0xFF800000#32 hr hφ hacc) h1) h2)) (ix3 r q k)
      = Ideal.exp (sc q k - (Finset.univ : Finset (Fin 64)).fold max (Ideal.ofBits .f32 0xFF800000#32) fun q' => sc q' k) := by
  show Ideal.exp (S (ix3 r q k) - broadcastTo S256x64x64
      (shapeCast S256x1x64 (multiReduction .maximumf [1] S256x64 S 0xFF800000#32 hr hφ hacc) h1) h2 (ix3 r q k)) = _
  rw [hS q k]
  refine congrArg (fun m => Ideal.exp (sc q k - m)) ?_
  refine (keep_apply _ h1 h2 r q k).trans ?_
  refine (colmax_apply S _ hr hφ hacc r k).trans ?_
  exact congrArg (fun f => Finset.fold max (Ideal.ofBits .f32 0xFF800000#32) f (Finset.univ : Finset (Fin 64)))
    (funext fun q' => hS q' k)

/-- The column sums kept along the first token index: an array whose entries (r, q, k) are `e q k`, summed over q and
    repeated, reads at (r, q, k) the sum over q' of `e q' k`. -/
theorem den_apply (E : FVec Ideal S256x64x64 .f32) (e : Fin 64 → Fin 64 → EReal) (r : Fin 256)
    (hE : ∀ q k, E (ix3 r q k) = e q k)
    (hr : S256x64x64.Reduces [1] S256x64) (hφ : FKind.Formats .f32)
    (hacc : (0x00000000#32 : BitVec 32) = FKind.add.neutral .f32 hφ)
    (h1 : S256x64.ShapeCasts S256x1x64) (h2 : S256x1x64.Broadcasts S256x64x64) (q k : Fin 64) :
    broadcastTo S256x64x64
        (shapeCast S256x1x64 (multiReduction .add [1] S256x64 E 0x00000000#32 hr hφ hacc) h1) h2 (ix3 r q k)
      = ∑ q' : Fin 64, e q' k := by
  refine (keep_apply _ h1 h2 r q k).trans ?_
  refine (Cert.Lib.SumLayout.sum_axis1_of3_apply E _ hr hφ hacc r k).trans ?_
  exact Finset.sum_congr rfl fun q' _ => hE q' k

theorem attend2 (Q K V : Vec Ideal S256x2048 .f32) (r : Fin 256) (q : Fin 64) (d : Fin 32) :
    k0_pay2 (F := Ideal) Q K V (ix3 (0 : Fin 1) r (Cert.Spec.col q d))
      = Cert.Spec.attend (fun r o => Q (ix2 r o)) (fun r o => K (ix2 r o)) (fun r o => V (ix2 r o)) r q d := by
  unfold k0_pay2 Cert.Spec.attend
  refine (shapeCast_ab_1ab_apply _ _ (0 : Fin 1) r (Cert.Spec.col q d)).trans ?_
  refine (merge_apply _ _ r q d).trans ?_
  refine (mulf_apply _ _ _).trans ?_
  refine congrArg₂ (· * ·) ?_ rfl
  refine (weighted_apply _ _ r q d).trans (Finset.sum_congr rfl fun k _ => ?_)
  refine congrArg₂ (· * ·) ((divf_apply _ _ _).trans (congrArg₂ Ideal.div ?_ ?_)) (split_apply V _ r k d)
  · exact expo_apply _ _ r (fun q' k' => score_apply Q K _ _ r q' k') _ _ _ _ _ q k
  · exact den_apply _ _ r
      (fun q' k' => expo_apply _ _ r (fun q'' k'' => score_apply Q K _ _ r q'' k'') _ _ _ _ _ q' k')
      _ _ _ _ _ q k

end Cert.KernelIdeal.Payloads

end
-- ==== Proof.LibRunningSum.lean ====
/-
  A running sum over the first blocks of `n`.

  A computation that visits `n` blocks in order and keeps the total of the blocks seen so far holds, after block `e`,
  `upTo F e`: the sum of `F s` over the blocks `s ≤ e`.  It starts at `F 0`, grows by `F (e + 1)` at each step, and from the last
  block on is the sum over all of them.  In any commutative monoid, so on the extended reals nothing needs to be finite.
-/
import Mathlib.Algebra.BigOperators.Fin
import Mathlib.Tactic.Linarith

namespace Cert.Lib.RunningSum

variable {M : Type*} [AddCommMonoid M] {n : ℕ}

/-- The sum of `F s` over the blocks `s ≤ e`. -/
def upTo (F : Fin n → M) (e : ℕ) : M := ∑ s : Fin n, if s.val ≤ e then F s else 0

theorem upTo_zero [NeZero n] (F : Fin n → M) : upTo F 0 = F 0 := by
  unfold upTo
  rw [Finset.sum_eq_single (0 : Fin n)]
  · simp
  · intro s _ hs
    have : ¬ s.val ≤ 0 := fun h => hs (Fin.ext (by simpa using h))
    rw [if_neg this]
  · intro h; exact absurd (Finset.mem_univ _) h

theorem upTo_succ (F : Fin n → M) (e : ℕ) (he : e + 1 < n) : upTo F (e + 1) = upTo F e + F ⟨e + 1, he⟩ := by
  unfold upTo
  have h : ∀ s : Fin n, (if s.val ≤ e + 1 then F s else 0)
      = (if s.val ≤ e then F s else 0) + (if s = ⟨e + 1, he⟩ then F s else 0) := by
    intro s
    by_cases h1 : s.val ≤ e
    · have h2 : s.val ≤ e + 1 := by omega
      have h3 : ¬ s = ⟨e + 1, he⟩ := fun h => by have := congrArg Fin.val h; simp at this; omega
      rw [if_pos h1, if_pos h2, if_neg h3, add_zero]
    · by_cases h2 : s = ⟨e + 1, he⟩
      · have h3 : s.val ≤ e + 1 := by rw [h2]
        rw [if_neg h1, if_pos h3, if_pos h2, zero_add]
      · have h3 : ¬ s.val ≤ e + 1 := fun h => h2 (Fin.ext (by show s.val = e + 1; omega))
        rw [if_neg h1, if_neg h3, if_neg h2, add_zero]
  rw [Finset.sum_congr rfl fun s _ => h s, Finset.sum_add_distrib, Finset.sum_ite_eq' Finset.univ (⟨e + 1, he⟩ : Fin n) F,
    if_pos (Finset.mem_univ _)]

theorem upTo_full (F : Fin n → M) (e : ℕ) (he : n ≤ e + 1) : upTo F e = ∑ s, F s := by
  unfold upTo
  refine Finset.sum_congr rfl fun s _ => ?_
  rw [if_pos (by have := s.isLt; omega)]

end Cert.Lib.RunningSum
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.Accumulate.lean ====
/-
  The accumulators after each visit, in closed form, at the exact values.

  Head `q` is visited four times, tile `k = 0, 1, 2, 3`. After tile `k` the query accumulator holds, at row `r` and output
  position `o`, the bias `bQ q o` plus the partial products of the tiles up to `k`; the key and value accumulators likewise.
  After the fourth tile the partial products add up to the whole inner product over the 2048 positions, in whatever
  order: addition on the extended reals is commutative and associative, so nothing needs to be finite.
-/
import proofs.«110373_j63084479644164_2_alg».proof.Proof.Gen.KernelIdeal.Frame
import proofs.«110373_j63084479644164_2_alg».proof.Proof.Visits
import proofs.«110373_j63084479644164_2_alg».proof.Proof.Blocks
import proofs.«110373_j63084479644164_2_alg».proof.Proof.Payloads
import proofs.«110373_j63084479644164_2_alg».proof.Proof.Spec
import proofs.«110373_j63084479644164_2_alg».proof.Proof.LibRunningSum
import proofs.«110373_j63084479644164_2_alg».proof.Proof.LibBlockRuns
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.KernelIdeal.Blocks Cert.KernelIdeal.Visits Cert.KernelIdeal.Payloads
open Cert.Lib.RunningSum Cert.Lib.BlockRuns

variable (m : (ℓ : Loc nD τ sig) → Buf (Elt Ideal) ℓ)

/-- The arrays the region finds, as plain functions into the extended reals. -/
abbrev fXd (c : Dev nD) : S8x256x2048.Idx → EReal := V m c main_v6
abbrev fXe (c : Dev nD) : S8x256x2048.Idx → EReal := V m c main_v10
abbrev fWq (c : Dev nD) : S8x2048x2048.Idx → EReal := V m c main_arg2
abbrev fWk (c : Dev nD) : S8x2048x2048.Idx → EReal := V m c main_arg4
abbrev fWv (c : Dev nD) : S8x2048x2048.Idx → EReal := V m c main_arg6
abbrev fBq (c : Dev nD) : S8x1x2048.Idx → EReal := V m c main_v0
abbrev fBk (c : Dev nD) : S8x1x2048.Idx → EReal := V m c main_v1
abbrev fBv (c : Dev nD) : S8x1x2048.Idx → EReal := V m c main_v2

/-- The partial product of tile `k`: the 512 positions `512 k + i` of head `q`'s row `r` against output position `o`. -/
def tileProd (X : S8x256x2048.Idx → EReal) (W : S8x2048x2048.Idx → EReal) (q : Fin 8) (r : Fin 256) (o : Fin 2048)
    (k : Fin 4) : EReal :=
  ∑ i : Fin 512, X (ix3 q r (runIdx 4 512 2048 rfl k i)) * W (ix3 q o (runIdx 4 512 2048 rfl k i))

/-- The visit of tile `k` of head `q`. -/
def visit (q : Fin 8) (k : ℕ) (hk : k < 4) : Fin cfg0.N :=
  ⟨4 * q.val + k, by have hN : cfg0.N = 32 := N_0; have := q.isLt; omega⟩

theorem headOf_visit (q : Fin 8) (k : ℕ) (hk : k < 4) : headOf (visit q k hk) = q :=
  Fin.ext (by show (4 * q.val + k) / 4 = q.val; omega)

theorem tilePos_visit (q : Fin 8) (k : ℕ) (hk : k < 4) (i : Fin 512) :
    tilePos (visit q k hk) i = runIdx 4 512 2048 rfl ⟨k, hk⟩ i :=
  Fin.ext (by show (4 * q.val + k) % 4 * 512 + i.val = k * 512 + i.val; rw [show (4 * q.val + k) % 4 = k by omega])

/-- What the visits have left does not depend on how the visit's number is written. -/
theorem outsAt_congr (c : Dev nD) (n n' : ℕ) (h : n = n') (hn : n < cfg0.N) (hn' : n' < cfg0.N) :
    outsAt0 m c n hn = outsAt0 m c n' hn' := by subst h; rfl

/-- One visit's accumulation, from what its blocks hold: the accumulator plus the tile's partial product. -/
theorem step_of_blocks (X : S8x256x2048.Idx → EReal) (W : S8x2048x2048.Idx → EReal) (q : Fin 8) (k : Fin 4)
    (x : Vec Ideal S1x256x512 .bf16) (w : Vec Ideal S1x2048x512 .f32)
    (hx : ∀ (r : Fin 256) (i : Fin 512), x (ix3 (0 : Fin 1) r i) = X (ix3 q r (runIdx 4 512 2048 rfl k i)))
    (hw : ∀ (o : Fin 2048) (i : Fin 512), w (ix3 (0 : Fin 1) o i) = W (ix3 q o (runIdx 4 512 2048 rfl k i)))
    (r : Fin 256) (o : Fin 2048) :
    (∑ i : Fin 512, x (ix3 (0 : Fin 1) r i) * w (ix3 (0 : Fin 1) o i)) = tileProd X W q r o k := by
  unfold tileProd
  exact Finset.sum_congr rfl fun i _ => by rw [hx r i, hw o i]

/-- The running total: a first value `b + P 0`, then `+ P (k + 1)` at each step, is `b` plus the partial products so far. -/
theorem running (b : EReal) (P : Fin 4 → EReal) (a : (k : ℕ) → k < 4 → EReal)
    (h0 : a 0 (by decide) = b + P 0)
    (hs : ∀ (k : ℕ) (hk : k + 1 < 4), a (k + 1) hk = a k (by omega) + P ⟨k + 1, hk⟩) :
    ∀ (k : ℕ) (hk : k < 4), a k hk = b + upTo P k
  | 0, _ => by rw [h0, upTo_zero]
  | k + 1, hk => by rw [hs k hk, running b P a h0 hs k (by omega), upTo_succ P k hk, add_assoc]

/-- The query accumulator after tile `k` of head `q`: the bias plus the partial products of the tiles so far. -/
theorem acc_q (c : Dev nD) (q : Fin 8) (r : Fin 256) (o : Fin 2048) (k : ℕ) (hk : k < 4) :
    (outsAt0 m c (visit q k hk).val (visit q k hk).isLt).2.1 (ix2 r o)
      = fBq m c (ix3 q (0 : Fin 1) o) + upTo (tileProd (fXd m c) (fWq m c) q r o) k := by
  refine running (fBq m c (ix3 q (0 : Fin 1) o)) (tileProd (fXd m c) (fWq m c) q r o)
    (fun k hk => (outsAt0 m c (visit q k hk).val (visit q k hk).isLt).2.1 (ix2 r o)) ?_ ?_ k hk
  · have e := (after_first m c (visit q 0 (by decide)) (by show (4 * q.val + 0) % 4 = 0; omega)
      (by show ¬(4 * q.val + 0) % 4 = 3; omega)).1
    show (outsAt0 m c (visit q 0 (by decide)).val (visit q 0 (by decide)).isLt).2.1 (ix2 r o) = _
    rw [e]
    refine (accum8 (iblk m c 0 (visit q 0 (by decide))) (iblk m c 2 (visit q 0 (by decide)))
      (k0_pay3 (F := Ideal) (iblk m c 3 (visit q 0 (by decide)))) r o).trans ?_
    rw [bias3, block3 m c (visit q 0 (by decide)) o, headOf_visit]
    refine congrArg (fBq m c (ix3 q (0 : Fin 1) o) + ·) (step_of_blocks (fXd m c) (fWq m c) q 0 _ _ (fun r i => ?_) (fun o i => ?_) r o)
    · rw [block0 m c (visit q 0 (by decide)) r i, headOf_visit, tilePos_visit]; rfl
    · rw [block2 m c (visit q 0 (by decide)) o i, headOf_visit, tilePos_visit]; rfl
  · intro k hk
    have e := (after_later m c (visit q (k + 1) hk) (by show ¬(4 * q.val + (k + 1)) % 4 = 0; omega)).1
    show (outsAt0 m c (visit q (k + 1) hk).val (visit q (k + 1) hk).isLt).2.1 (ix2 r o)
      = (outsAt0 m c (visit q k (by omega)).val (visit q k (by omega)).isLt).2.1 (ix2 r o) + _
    rw [e]
    refine (accum8 (iblk m c 0 (visit q (k + 1) hk)) (iblk m c 2 (visit q (k + 1) hk)) _ r o).trans ?_
    refine congr (congrArg HAdd.hAdd ?_) (step_of_blocks (fXd m c) (fWq m c) q ⟨k + 1, hk⟩ _ _ (fun r i => ?_) (fun o i => ?_) r o)
    · exact congrFun (congrArg (fun p => p.2.1) (outsAt_congr m c _ _ (by show 4 * q.val + (k + 1) - 1 = 4 * q.val + k; omega) _ _)) (ix2 r o)
    · rw [block0 m c (visit q (k + 1) hk) r i, headOf_visit, tilePos_visit]
    · rw [block2 m c (visit q (k + 1) hk) o i, headOf_visit, tilePos_visit]

/-- The key accumulator after tile `k` of head `q`. -/
theorem acc_k (c : Dev nD) (q : Fin 8) (r : Fin 256) (o : Fin 2048) (k : ℕ) (hk : k < 4) :
    (outsAt0 m c (visit q k hk).val (visit q k hk).isLt).2.2.1 (ix2 r o)
      = fBk m c (ix3 q (0 : Fin 1) o) + upTo (tileProd (fXe m c) (fWk m c) q r o) k := by
  refine running (fBk m c (ix3 q (0 : Fin 1) o)) (tileProd (fXe m c) (fWk m c) q r o)
    (fun k hk => (outsAt0 m c (visit q k hk).val (visit q k hk).isLt).2.2.1 (ix2 r o)) ?_ ?_ k hk
  · have e := (after_first m c (visit q 0 (by decide)) (by show (4 * q.val + 0) % 4 = 0; omega)
      (by show ¬(4 * q.val + 0) % 4 = 3; omega)).2.1
    show (outsAt0 m c (visit q 0 (by decide)).val (visit q 0 (by decide)).isLt).2.2.1 (ix2 r o) = _
    rw [e]
    refine (accum9 (iblk m c 1 (visit q 0 (by decide))) (iblk m c 4 (visit q 0 (by decide)))
      (k0_pay4 (F := Ideal) (iblk m c 5 (visit q 0 (by decide)))) r o).trans ?_
    rw [bias4, block5 m c (visit q 0 (by decide)) o, headOf_visit]
    refine congrArg (fBk m c (ix3 q (0 : Fin 1) o) + ·) (step_of_blocks (fXe m c) (fWk m c) q 0 _ _ (fun r i => ?_) (fun o i => ?_) r o)
    · rw [block1 m c (visit q 0 (by decide)) r i, headOf_visit, tilePos_visit]; rfl
    · rw [block4 m c (visit q 0 (by decide)) o i, headOf_visit, tilePos_visit]; rfl
  · intro k hk
    have e := (after_later m c (visit q (k + 1) hk) (by show ¬(4 * q.val + (k + 1)) % 4 = 0; omega)).2.1
    show (outsAt0 m c (visit q (k + 1) hk).val (visit q (k + 1) hk).isLt).2.2.1 (ix2 r o)
      = (outsAt0 m c (visit q k (by omega)).val (visit q k (by omega)).isLt).2.2.1 (ix2 r o) + _
    rw [e]
    refine (accum9 (iblk m c 1 (visit q (k + 1) hk)) (iblk m c 4 (visit q (k + 1) hk)) _ r o).trans ?_
    refine congr (congrArg HAdd.hAdd ?_) (step_of_blocks (fXe m c) (fWk m c) q ⟨k + 1, hk⟩ _ _ (fun r i => ?_) (fun o i => ?_) r o)
    · exact congrFun (congrArg (fun p => p.2.2.1) (outsAt_congr m c _ _ (by show 4 * q.val + (k + 1) - 1 = 4 * q.val + k; omega) _ _)) (ix2 r o)
    · rw [block1 m c (visit q (k + 1) hk) r i, headOf_visit, tilePos_visit]
    · rw [block4 m c (visit q (k + 1) hk) o i, headOf_visit, tilePos_visit]

/-- The value accumulator after tile `k` of head `q`. -/
theorem acc_v (c : Dev nD) (q : Fin 8) (r : Fin 256) (o : Fin 2048) (k : ℕ) (hk : k < 4) :
    (outsAt0 m c (visit q k hk).val (visit q k hk).isLt).2.2.2 (ix2 r o)
      = fBv m c (ix3 q (0 : Fin 1) o) + upTo (tileProd (fXe m c) (fWv m c) q r o) k := by
  refine running (fBv m c (ix3 q (0 : Fin 1) o)) (tileProd (fXe m c) (fWv m c) q r o)
    (fun k hk => (outsAt0 m c (visit q k hk).val (visit q k hk).isLt).2.2.2 (ix2 r o)) ?_ ?_ k hk
  · have e := (after_first m c (visit q 0 (by decide)) (by show (4 * q.val + 0) % 4 = 0; omega)
      (by show ¬(4 * q.val + 0) % 4 = 3; omega)).2.2
    show (outsAt0 m c (visit q 0 (by decide)).val (visit q 0 (by decide)).isLt).2.2.2 (ix2 r o) = _
    rw [e]
    refine (accum1 (iblk m c 1 (visit q 0 (by decide))) (iblk m c 6 (visit q 0 (by decide)))
      (k0_pay5 (F := Ideal) (iblk m c 7 (visit q 0 (by decide)))) r o).trans ?_
    rw [bias5, block7 m c (visit q 0 (by decide)) o, headOf_visit]
    refine congrArg (fBv m c (ix3 q (0 : Fin 1) o) + ·) (step_of_blocks (fXe m c) (fWv m c) q 0 _ _ (fun r i => ?_) (fun o i => ?_) r o)
    · rw [block1 m c (visit q 0 (by decide)) r i, headOf_visit, tilePos_visit]; rfl
    · rw [block6 m c (visit q 0 (by decide)) o i, headOf_visit, tilePos_visit]; rfl
  · intro k hk
    have e := (after_later m c (visit q (k + 1) hk) (by show ¬(4 * q.val + (k + 1)) % 4 = 0; omega)).2.2
    show (outsAt0 m c (visit q (k + 1) hk).val (visit q (k + 1) hk).isLt).2.2.2 (ix2 r o)
      = (outsAt0 m c (visit q k (by omega)).val (visit q k (by omega)).isLt).2.2.2 (ix2 r o) + _
    rw [e]
    refine (accum1 (iblk m c 1 (visit q (k + 1) hk)) (iblk m c 6 (visit q (k + 1) hk)) _ r o).trans ?_
    refine congr (congrArg HAdd.hAdd ?_) (step_of_blocks (fXe m c) (fWv m c) q ⟨k + 1, hk⟩ _ _ (fun r i => ?_) (fun o i => ?_) r o)
    · exact congrFun (congrArg (fun p => p.2.2.2) (outsAt_congr m c _ _ (by show 4 * q.val + (k + 1) - 1 = 4 * q.val + k; omega) _ _)) (ix2 r o)
    · rw [block1 m c (visit q (k + 1) hk) r i, headOf_visit, tilePos_visit]
    · rw [block6 m c (visit q (k + 1) hk) o i, headOf_visit, tilePos_visit]

end Cert.KernelIdeal.Accumulate

end
-- ==== Proof.Prefix.lean ====
/-
  The arrays the region finds, as functions of the arguments.

  Before the region the program splits each activation [256, 64, 256] into heads — reshape to [256, 64, 8, 32], bring the
  head axis to the front, flatten each row's 64 tokens of 32 channels to 2048 — and narrows it to the short float
  format; it gives each bias [8, 2048] a unit middle axis. The weights go in as they are.
-/
import proofs.«110373_j63084479644164_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Prefix

open Cert.KernelIdeal Cert.KernelIdeal.Gen

variable {F : FTy → Type} [FloatOps F]
variable (m : (ℓ : Loc nD τ sig) → Buf (Elt F) ℓ)

/-- An activation split into heads: [256, 64, 256] to [8, 256, 2048]. -/
def heads (x : (⟨S256x64x256, .f32⟩ : BufTy).Contents (Elt F)) : (⟨S8x256x2048, .f32⟩ : BufTy).Contents (Elt F) :=
  shapeCast S8x256x2048 (transpose S8x256x64x32 [2, 0, 1, 3] (shapeCast S256x64x8x32 x shapeCasts_S256x64x256_S256x64x8x32)
    transposes_S256x64x8x32_S8x256x64x32_2_0_1_3) shapeCasts_S8x256x64x32_S8x256x2048

/-- The decoder activation as the region finds it: split into heads, narrowed. -/
theorem found_xd (c : Dev nD) :
    V m c main_v6 = (truncf .bf16 (heads (m ((c : Thread nD τ).loc main_arg0))) bitsLt_bf16_f32 : (⟨S8x256x2048, .bf16⟩ : BufTy).Contents (Elt F)) := by
  show StableHlo.after hostOps0 (fun b => m (c, b)) (Proc.devRef .tc main_v6) = _
  after_results; rfl

/-- The encoder activation as the region finds it. -/
theorem found_xe (c : Dev nD) :
    V m c main_v10 = (truncf .bf16 (heads (m ((c : Thread nD τ).loc main_arg1))) bitsLt_bf16_f32 : (⟨S8x256x2048, .bf16⟩ : BufTy).Contents (Elt F)) := by
  show StableHlo.after hostOps0 (fun b => m (c, b)) (Proc.devRef .tc main_v10) = _
  after_results; rfl

/-- The three biases as the region finds them: a unit axis put in the middle. -/
theorem found_bq (c : Dev nD) :
    V m c main_v0 = (shapeCast S8x1x2048 (m ((c : Thread nD τ).loc main_arg3)) shapeCasts_S8x2048_S8x1x2048 : (⟨S8x1x2048, .f32⟩ : BufTy).Contents (Elt F)) := by
  show StableHlo.after hostOps0 (fun b => m (c, b)) (Proc.devRef .tc main_v0) = _
  after_results; rfl
theorem found_bk (c : Dev nD) :
    V m c main_v1 = (shapeCast S8x1x2048 (m ((c : Thread nD τ).loc main_arg5)) shapeCasts_S8x2048_S8x1x2048 : (⟨S8x1x2048, .f32⟩ : BufTy).Contents (Elt F)) := by
  show StableHlo.after hostOps0 (fun b => m (c, b)) (Proc.devRef .tc main_v1) = _
  after_results; rfl
theorem found_bv (c : Dev nD) :
    V m c main_v2 = (shapeCast S8x1x2048 (m ((c : Thread nD τ).loc main_arg7)) shapeCasts_S8x2048_S8x1x2048 : (⟨S8x1x2048, .f32⟩ : BufTy).Contents (Elt F)) := by
  show StableHlo.after hostOps0 (fun b => m (c, b)) (Proc.devRef .tc main_v2) = _
  after_results; rfl

/-- A bias with its unit middle axis, read at (h, 0, o): the bias at (h, o). -/
theorem bias_at (b : (⟨S8x2048, .f32⟩ : BufTy).Contents (Elt F)) (h : Fin 8) (o : Fin 2048) :
    (shapeCast S8x1x2048 b shapeCasts_S8x2048_S8x1x2048) (ix3 h (0 : Fin 1) o) = b (ix2 h o) := by
  refine shapeCast_apply b shapeCasts_S8x2048_S8x1x2048 (ix3 h (0 : Fin 1) o) (ix2 h o) ?_
  rewrite [Shape.rowMajor_val_two, Shape.rowMajor_val_three]
  show h.val * 2048 + o.val = (h.val * 1 + 0) * 2048 + o.val
  omega

end Cert.KernelIdeal.Prefix

end
-- ==== Proof.Final.lean ====
/-
  The array the region leaves, and the program's result.

  After its fourth visit head `q`'s output block [256, 2048] holds, at row `r` and position `j` = channel `chan j` of token
  `tok j`, the attention of the head's three projections; the four partial products of each projection have by then
  added up to the whole inner product over the 2048 positions plus the bias. The eight heads' blocks tile the array
  [8, 256, 2048]. After the region the program merges the heads: reshape to [8, 256, 64, 32], bring the head axis behind
  the token axis, flatten to [256, 64, 256].
-/
import proofs.«110373_j63084479644164_2_alg».proof.Proof.Gen.KernelIdeal.Frame
import proofs.«110373_j63084479644164_2_alg».proof.Proof.Accumulate
import proofs.«110373_j63084479644164_2_alg».proof.Proof.Prefix
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Visits Cert.KernelIdeal.Payloads
open Cert.KernelIdeal.Accumulate Cert.KernelIdeal.Prefix
open Cert.Lib.RunningSum Cert.Lib.BlockRuns

variable (m : (ℓ : Loc nD τ sig) → Buf (Elt Ideal) ℓ)

/-- An array [8, 256, 2048] from a function of head, row and position. -/
def at3 (f : Fin 8 → Fin 256 → Fin 2048 → EReal) : S8x256x2048.Idx → EReal :=
  fun i => f ⟨(i 0).val, (i 0).isLt⟩ ⟨(i 1).val, (i 1).isLt⟩ ⟨(i 2).val, (i 2).isLt⟩

theorem at3_ix3 (f : Fin 8 → Fin 256 → Fin 2048 → EReal) (q : Fin 8) (r : Fin 256) (j : Fin 2048) :
    at3 f (ix3 q r j) = f q r j := rfl

/-- Head `q`'s projection of an activation split into heads: `x · Wᵀ + b` over the head's 2048 positions. -/
def proj (X : S8x256x2048.Idx → EReal) (W : S8x2048x2048.Idx → EReal) (B : S8x2048.Idx → EReal) (q : Fin 8) :
    Fin 256 → Fin 2048 → EReal :=
  Cert.Spec.lin (fun r i => X (ix3 q r i)) (fun o i => W (ix3 q o i)) (fun o => B (ix2 q o))

/-- All heads' attention, before the heads are merged, as a function of the eight arguments. -/
def headsOut (a0 a1 : (⟨S256x64x256, .f32⟩ : BufTy).Contents (Elt Ideal)) (w2 : (⟨S8x2048x2048, .f32⟩ : BufTy).Contents (Elt Ideal))
    (b3 : (⟨S8x2048, .f32⟩ : BufTy).Contents (Elt Ideal)) (w4 : (⟨S8x2048x2048, .f32⟩ : BufTy).Contents (Elt Ideal))
    (b5 : (⟨S8x2048, .f32⟩ : BufTy).Contents (Elt Ideal)) (w6 : (⟨S8x2048x2048, .f32⟩ : BufTy).Contents (Elt Ideal))
    (b7 : (⟨S8x2048, .f32⟩ : BufTy).Contents (Elt Ideal)) : S8x256x2048.Idx → EReal :=
  at3 fun q r j => Cert.Spec.attend (proj (heads a0) w2 b3 q) (proj (heads a1) w4 b5 q) (proj (heads a1) w6 b7 q) r
    (Cert.Spec.tok j) (Cert.Spec.chan j)

/-- The finished accumulation of one projection: bias plus the four tiles' partial products is the whole inner product plus the bias. -/
theorem whole_of_tiles (X : S8x256x2048.Idx → EReal) (W : S8x2048x2048.Idx → EReal) (b : EReal) (q : Fin 8) (r : Fin 256) (o : Fin 2048) :
    b + upTo (tileProd X W q r o) 3 = (∑ i : Fin 2048, X (ix3 q r i) * W (ix3 q o i)) + b := by
  rw [upTo_full _ 3 (by decide), add_comm, sum_runs 4 512 2048 rfl]
  rfl

/-- The last visit of head `q`. -/
abbrev lastVisit (q : Fin 8) : Fin cfg0.N := visit q 3 (by decide)

/-- After the fourth visit of head `q` each accumulator holds the head's whole projection. -/
theorem done_q (c : Dev nD) (q : Fin 8) :
    (fun (r : Fin 256) (o : Fin 2048) => (outsAt0 m c (lastVisit q).val (lastVisit q).isLt).2.1 (ix2 r o))
      = proj (heads (m ((c : Thread nD τ).loc main_arg0))) (m ((c : Thread nD τ).loc main_arg2)) (m ((c : Thread nD τ).loc main_arg3)) q := by
  funext r o
  rw [acc_q m c q r o 3 (by decide)]
  refine (whole_of_tiles (fXd m c) (fWq m c) _ q r o).trans ?_
  unfold proj Cert.Spec.lin
  have hX : ∀ i, fXd m c i = heads (m ((c : Thread nD τ).loc main_arg0)) i := fun i => by
    show V m c main_v6 i = _; rw [found_xd]; rfl
  have hW : ∀ i, fWq m c i = m ((c : Thread nD τ).loc main_arg2) i := fun i => by
    show V m c main_arg2 i = _; rw [V_main_arg2]
  have hB : fBq m c (ix3 q (0 : Fin 1) o) = m ((c : Thread nD τ).loc main_arg3) (ix2 q o) := by
    show V m c main_v0 _ = _; rw [found_bq]; exact bias_at _ q o
  rw [hB]
  exact congrArg (· + _) (Finset.sum_congr rfl fun i _ => by rw [hX, hW])

theorem done_k (c : Dev nD) (q : Fin 8) :
    (fun (r : Fin 256) (o : Fin 2048) => (outsAt0 m c (lastVisit q).val (lastVisit q).isLt).2.2.1 (ix2 r o))
      = proj (heads (m ((c : Thread nD τ).loc main_arg1))) (m ((c : Thread nD τ).loc main_arg4)) (m ((c : Thread nD τ).loc main_arg5)) q := by
  funext r o
  rw [acc_k m c q r o 3 (by decide)]
  refine (whole_of_tiles (fXe m c) (fWk m c) _ q r o).trans ?_
  unfold proj Cert.Spec.lin
  have hX : ∀ i, fXe m c i = heads (m ((c : Thread nD τ).loc main_arg1)) i := fun i => by
    show V m c main_v10 i = _; rw [found_xe]; rfl
  have hW : ∀ i, fWk m c i = m ((c : Thread nD τ).loc main_arg4) i := fun i => by
    show V m c main_arg4 i = _; rw [V_main_arg4]
  have hB : fBk m c (ix3 q (0 : Fin 1) o) = m ((c : Thread nD τ).loc main_arg5) (ix2 q o) := by
    show V m c main_v1 _ = _; rw [found_bk]; exact bias_at _ q o
  rw [hB]
  exact congrArg (· + _) (Finset.sum_congr rfl fun i _ => by rw [hX, hW])

theorem done_v (c : Dev nD) (q : Fin 8) :
    (fun (r : Fin 256) (o : Fin 2048) => (outsAt0 m c (lastVisit q).val (lastVisit q).isLt).2.2.2 (ix2 r o))
      = proj (heads (m ((c : Thread nD τ).loc main_arg1))) (m ((c : Thread nD τ).loc main_arg6)) (m ((c : Thread nD τ).loc main_arg7)) q := by
  funext r o
  rw [acc_v m c q r o 3 (by decide)]
  refine (whole_of_tiles (fXe m c) (fWv m c) _ q r o).trans ?_
  unfold proj Cert.Spec.lin
  have hX : ∀ i, fXe m c i = heads (m ((c : Thread nD τ).loc main_arg1)) i := fun i => by
    show V m c main_v10 i = _; rw [found_xe]; rfl
  have hW : ∀ i, fWv m c i = m ((c : Thread nD τ).loc main_arg6) i := fun i => by
    show V m c main_arg6 i = _; rw [V_main_arg6]
  have hB : fBv m c (ix3 q (0 : Fin 1) o) = m ((c : Thread nD τ).loc main_arg7) (ix2 q o) := by
    show V m c main_v2 _ = _; rw [found_bv]; exact bias_at _ q o
  rw [hB]
  exact congrArg (· + _) (Finset.sum_congr rfl fun i _ => by rw [hX, hW])

/-- What head `q`'s last visit writes back is the head's block of `headsOut`. -/
theorem flushed_eq (c : Dev nD) (t : Fin cfg0.N) (hf : (cfg0.win 8).flush t = true) :
    (dats m 0 c).flushed 8 t = ((cfg0.win 8).blk t).view.read (Elt Ideal) (headsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have h3 : t.val % 4 = 3 := (flush0_8 t).mp hf
  obtain ⟨q, rfl⟩ : ∃ q : Fin 8, t = lastVisit q :=
    ⟨headOf t, Fin.ext (by show t.val = 4 * (t.val / 4) + 3; omega)⟩
  show (cfg0.win 8).cut (grid0.coords (lastVisit q)) ((dats m 0 c).after 8 (lastVisit q)) = _
  rw [after0_8, after_last m c (lastVisit q) (by show ¬(4 * q.val + 3) % 4 = 0; omega) (by show (4 * q.val + 3) % 4 = 3; omega)]
  funext y
  obtain ⟨z, r, j, rfl⟩ : ∃ (z : Fin 1) (r : Fin 256) (j : Fin 2048), y = ix3 z r j := ⟨y 0, y 1, y 2, eq_ix3 y⟩
  obtain rfl : z = 0 := Subsingleton.elim _ _
  rw [View.read_apply]
  have hemb : ((cfg0.win 8).blk (lastVisit q)).view.emb (ix3 (0 : Fin 1) r j) = ix3 q r j := by
    funext a; apply Fin.ext
    obtain ⟨-, -, -, -, -, -, -, -, e0, e1, e2⟩ := block_index (lastVisit q)
    match a with
    | ⟨0, _⟩ => show win0_8.index (lastVisit q) (0 : Fin 3) * 1 + 1 * 0 = q.val; rw [e0]; show (4 * q.val + 3) / 4 * 1 + 1 * 0 = q.val; omega
    | ⟨1, _⟩ => show win0_8.index (lastVisit q) (1 : Fin 3) * 256 + 1 * r.val = r.val; omega
    | ⟨2, _⟩ => show win0_8.index (lastVisit q) (2 : Fin 3) * 2048 + 1 * j.val = j.val; omega
  rw [hemb]
  show k0_pay2 (F := Ideal) _ _ _ (ix3 (0 : Fin 1) r j) = headsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 q r j)
  unfold headsOut
  rw [at3_ix3, ← done_q m c q, ← done_k m c q, ← done_v m c q]
  conv_lhs => rw [← Cert.Spec.col_tok_chan j]
  exact attend2 _ _ _ r (Cert.Spec.tok j) (Cert.Spec.chan j)

/-- Every index of the array [8, 256, 2048] lies in the block some head's last visit writes back. -/
theorem covered (i : S8x256x2048.Idx) :
    ∃ t : Fin cfg0.N, (cfg0.win 8).flush t = true ∧ i ∈ ((cfg0.win 8).blk t).view.set := by
  have h0 : (i 0).val < 8 := (i 0).isLt
  have h1 : (i 1).val < 256 := (i 1).isLt
  have h2 : (i 2).val < 2048 := (i 2).isLt
  refine ⟨lastVisit ⟨(i 0).val, h0⟩, (flush0_8 _).mpr (by show (4 * (i 0).val + 3) % 4 = 3; omega), ?_⟩
  show i ∈ ((View.whole main_v11).slice (win0_8.rect (lastVisit ⟨(i 0).val, h0⟩))).set
  rw [View.set_slice_whole, Rect.mem_set_unit]
  obtain ⟨-, -, -, -, -, -, -, -, e0, e1, e2⟩ := block_index (lastVisit ⟨(i 0).val, h0⟩)
  have e0' : win0_8.index (lastVisit ⟨(i 0).val, h0⟩) (0 : Fin 3) = (i 0).val := by
    rw [e0]; show (4 * (i 0).val + 3) / 4 = (i 0).val; omega
  intro a
  match a with
  | ⟨0, _⟩ => show win0_8.index (lastVisit ⟨(i 0).val, h0⟩) (0 : Fin 3) * 1 ≤ (i 0).val ∧ (i 0).val < win0_8.index (lastVisit ⟨(i 0).val, h0⟩) (0 : Fin 3) * 1 + 1; omega
  | ⟨1, _⟩ => show win0_8.index (lastVisit ⟨(i 0).val, h0⟩) (1 : Fin 3) * 256 ≤ (i 1).val ∧ (i 1).val < win0_8.index (lastVisit ⟨(i 0).val, h0⟩) (1 : Fin 3) * 256 + 256; omega
  | ⟨2, _⟩ => show win0_8.index (lastVisit ⟨(i 0).val, h0⟩) (2 : Fin 3) * 2048 ≤ (i 2).val ∧ (i 2).val < win0_8.index (lastVisit ⟨(i 0).val, h0⟩) (2 : Fin 3) * 2048 + 2048; omega

/-- So the region leaves the array at `headsOut` of the arguments. -/
theorem region_leaves (c : Dev nD) : (dats m 0 c).arrAt 8 cfg0.N = headsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 (headsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (flushed_eq m c) covered

end Cert.KernelIdeal.Final

end
-- ==== Proof.KernelRun.lean ====
/-
  The kernel program's run, with its result named.

  Every weakly fair execution of the program ends with the result buffer holding the merged heads of `headsOut` of the
  eight arguments, and the arguments unchanged: the region leaves its array at `headsOut`, and the three operations after
  the region reshape it to [8, 256, 64, 32], move the head axis behind the token axis and flatten to [256, 64, 256].
-/
import proofs.«110373_j63084479644164_2_alg».proof.Proof.Gen.KernelIdeal.Frame
import proofs.«110373_j63084479644164_2_alg».proof.Proof.Final
import Idealize.ShloMosaic.Lib.StableHlo.Run
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Final

variable (m : (ℓ : Loc nD τ sig) → Buf (Elt Ideal) ℓ) (ρ : Dev nD → PrngReg)

/-- Merging the heads: [8, 256, 2048] to [256, 64, 256]. -/
def merge (X : (⟨S8x256x2048, .f32⟩ : BufTy).Contents (Elt Ideal)) : (⟨S256x64x256, .f32⟩ : BufTy).Contents (Elt Ideal) :=
  shapeCast S256x64x256 (transpose S256x64x8x32 [1, 2, 0, 3] (shapeCast S8x256x64x32 X shapeCasts_S8x256x2048_S8x256x64x32)
    transposes_S8x256x64x32_S256x64x8x32_1_2_0_3) shapeCasts_S256x64x8x32_S256x64x256

/-- What the operations after the region leave in the result buffer: the merged heads of the region's array. -/
theorem tail_eq (c : Dev nD) :
    Pipeline.afterTail₀ cfgs (dats m) 0 (V0 m) [hostOps1] c main_v14 = merge ((dats m 0 c).arrAt 8 cfg0.N) := by
  unfold Pipeline.afterTail₀
  show StableHlo.after hostOps1 _ (Proc.devRef .tc main_v14) = _
  after_results
  rw [show Pipeline.withArrays (cfgs 0).spec c (V0 m c) (fun w => (dats m 0 c).arrAt w (cfgs 0).N) (Proc.tc.devRef main_v11)
      = (dats m 0 c).arrAt 8 cfg0.N from Pipeline.withArrays_arr spec0 launch0.win.arr_inj c _ _ 8]
  rfl

/-- The run, read: the result buffer at the merged heads of `headsOut` of the arguments, the arguments unchanged. -/
theorem run : θ_run defs (onTc (τ := τ) (main (F := Ideal))) ⟨m, fun _ => 0, ρ⟩ fun r => ∀ c : Dev nD,
      r.2.mem ((c : Thread nD τ).loc main_v14) = merge (headsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h c).2 main_v14 (Pipeline.mem_restRefs_of main_v14 (by decide) (by decide))).trans
        ((tail_eq m c).trans (congrArg merge (region_leaves m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c))⟩)
    (run_main m ρ)

end Cert.KernelIdeal.KernelRun

end
-- ==== Proof.LibHostMaxThird.lean ====
/-
  A reduction by maximum along the third axis of a rank-four array, read at an index.

  Over the extended reals the maximum is commutative and associative, so the reduction of an array `[a, b, n, c]` along its
  third axis is, at `(p, q, l)`, the maximum of the `n` entries `(p, q, ·, l)` folded from the initial value, in any order
  (what a softmax over the third axis of a rank-four array of scores takes first). General in the four extents; the
  reduction's side conditions are variables, so that whatever proofs a program's text carries unify with them.
-/
import Idealize.ShloMosaic.Lib.ValueIdx
import Idealize.ShloMosaic.PureOps.Ideal.Laws
import Idealize.ShloMosaic.PureOps.Reduce

noncomputable section

namespace Cert.Lib.HostMaxThird

open Idealize.ShloMosaic Idealize.ShloMosaic.ValueIdx

/-- The index `(p, q, l)` of the reduced array with the coordinate `k` put back on the third axis is `(p, q, k, l)`. -/
theorem lift_axis2_of4 {a b n c : ℕ} (hr : (⟨4, ![a, b, n, c]⟩ : Shape).Reduces [2] ⟨3, ![a, b, c]⟩) (p : Fin a) (q : Fin b)
    (l : Fin c) (k : Fin ((⟨4, ![a, b, n, c]⟩ : Shape).size 2)) :
    hr.lift (ix3 p q l) k = ix4 p q (⟨k.val, k.isLt⟩ : Fin n) l := by
  funext a; apply Fin.ext
  match a with | ⟨0, _⟩ => rfl | ⟨1, _⟩ => rfl | ⟨2, _⟩ => rfl | ⟨3, _⟩ => rfl

/-- The reduction by maximum along the third axis of an array `[a, b, n, c]`, read at `(p, q, l)`, is the maximum of the
    entries `(p, q, k, l)` over `k`, folded from the initial value. -/
theorem hostMax_axis2_of4_apply {a b n c : ℕ} {u : Shape} (x : FVec Ideal ⟨4, ![a, b, n, c]⟩ .f32) (init : u.Idx → EReal)
    (hr' : (⟨4, ![a, b, n, c]⟩ : Shape).ReducesTo [2] ⟨3, ![a, b, c]⟩)
    (hr : (⟨4, ![a, b, n, c]⟩ : Shape).Reduces [2] ⟨3, ![a, b, c]⟩) (hu : 0 < u.numel) (p : Fin a) (q : Fin b) (l : Fin c) :
    Host.reduce (FloatOps.maximumf (F := Ideal) (φ := .f32)) x init hr' hu (ix3 p q l)
      = (Finset.univ : Finset (Fin n)).fold max (init (Shape.Idx.first hu)) fun k => x (ix4 p q k l) := by
  rw [Host.reduce_eq_fold_single (FloatOps.maximumf (F := Ideal) (φ := .f32)) x init hr' hr hu]
  have hf : (x ∘ hr.lift (ix3 p q l)) = fun k : Fin n => x (ix4 p q k l) :=
    funext fun k => congrArg x (lift_axis2_of4 hr p q l k)
  exact congrArg (fun f => Finset.fold max (init (Shape.Idx.first hu)) f (Finset.univ : Finset (Fin n))) hf

end Cert.Lib.HostMaxThird

end
-- ==== Proof.RefValue.lean ====
/-
  The reference program read at an index: for head `h`, row `r`, query token `q` and channel `d`, its result is the
  attention (softmax over the query tokens, scaled) of three affine projections of the head's rows.

  The steps, each a small lemma below.
  * Each projection is a contraction over the 2048 positions of a row with a weight matrix, plus a bias that is the same
    for every row; regrouped as 64 tokens of 32 channels, channel `d` of token `q` is position `32 q + d`.
  * A score is the inner product over the 32 channels of a query token with a key token.
  * The largest score of a key token is a maximum over the query tokens: a reduction along the third axis of the
    `[8, 256, 64, 64]` array of scores, which over the extended reals is a fold of `max` in any order; the further
    maximum with minus infinity is absorbed, the fold starting from minus infinity already.
  * The exponentials, their sum over the query tokens (a sum started from zero), the quotient, the contraction over the
    key tokens with the value projection, and the product by the scale word follow the operations one by one.
-/
import proofs.«110373_j63084479644164_2_alg».proof.Proof.Gen.ReferenceIdeal.Read
import proofs.«110373_j63084479644164_2_alg».proof.Proof.Spec
import proofs.«110373_j63084479644164_2_alg».proof.Proof.LibHostMaxThird
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Read Idealize.ShloMosaic Idealize.ShloMosaic.ValueIdx
open Cert.Lib.HostMaxThird

/-! ## The three projections

A row of head `h` is sent through an affine map (a contraction over the 2048 positions, plus a bias that does not depend on
the row), and the result is regrouped as 64 tokens of 32 channels: position `32 q + d` is channel `d` of token `q`. -/

/-- Position `32 q + d` of a row of 2048, read as channel `d` of token `q`. -/
theorem idx_split (h : Fin 8) (r : Fin 256) (q : Fin 64) (d : Fin 32) :
    idx_main_v10 (ix4 h r q d) = ix3 h r (Cert.Spec.col q d) := by
  funext a
  apply Fin.ext
  have := h.isLt; have := r.isLt; have := q.isLt; have := d.isLt
  match a with
  | ⟨0, _⟩ => show (((h.val * 256 + r.val) * 64 + q.val) * 32 + d.val) / 524288 = h.val; omega
  | ⟨1, _⟩ => show (((h.val * 256 + r.val) * 64 + q.val) * 32 + d.val) / 2048 % 256 = r.val; omega
  | ⟨2, _⟩ => show (((h.val * 256 + r.val) * 64 + q.val) * 32 + d.val) % 2048 = q.val * 32 + d.val; omega

/-- The query projection of head `h`, before regrouping: the affine map of the row. -/
theorem linQ_at (x0 : (⟨S256x64x256, .f32⟩ : BufTy).Contents (Elt Ideal)) (x2 : (⟨S8x2048x2048, .f32⟩ : BufTy).Contents (Elt Ideal)) (x3 : (⟨S8x2048, .f32⟩ : BufTy).Contents (Elt Ideal))
    (h : Fin 8) (r : Fin 256) (c : Fin 2048) :
    val_main_v9 (F := Ideal) x0 x2 x3 (ix3 h r c) = Cert.Spec.lin (fun r i => val_main_v2 (F := Ideal) x0 (ix3 h r i)) (fun o i => x2 (ix3 h o i)) (fun o => x3 (ix2 h o)) r c := by
  rw [val_main_v9_apply, val_main_v6_apply, val_main_v8_apply, val_main_v7_apply]
  generalize val_main_v2 (F := Ideal) x0 = y
  unfold Cert.Spec.lin
  refine congrArg₂ (· + ·) (Finset.sum_congr rfl fun k _ => congrArg₂ (· * ·) (congrArg y ?_) (congrArg x2 ?_)) (congrArg x3 ?_)
  · funext a; apply Fin.ext; match a with | ⟨0, _⟩ => rfl | ⟨1, _⟩ => rfl | ⟨2, _⟩ => rfl
  · funext a; apply Fin.ext; match a with | ⟨0, _⟩ => rfl | ⟨1, _⟩ => rfl | ⟨2, _⟩ => rfl
  · funext a; apply Fin.ext; match a with | ⟨0, _⟩ => rfl | ⟨1, _⟩ => rfl

/-- The key projection of head `h`, before regrouping. -/
theorem linK_at (x1 : (⟨S256x64x256, .f32⟩ : BufTy).Contents (Elt Ideal)) (x4 : (⟨S8x2048x2048, .f32⟩ : BufTy).Contents (Elt Ideal)) (x5 : (⟨S8x2048, .f32⟩ : BufTy).Contents (Elt Ideal))
    (h : Fin 8) (r : Fin 256) (c : Fin 2048) :
    val_main_v14 (F := Ideal) x1 x4 x5 (ix3 h r c) = Cert.Spec.lin (fun r i => val_main_v5 (F := Ideal) x1 (ix3 h r i)) (fun o i => x4 (ix3 h o i)) (fun o => x5 (ix2 h o)) r c := by
  rw [val_main_v14_apply, val_main_v11_apply, val_main_v13_apply, val_main_v12_apply]
  generalize val_main_v5 (F := Ideal) x1 = y
  unfold Cert.Spec.lin
  refine congrArg₂ (· + ·) (Finset.sum_congr rfl fun k _ => congrArg₂ (· * ·) (congrArg y ?_) (congrArg x4 ?_)) (congrArg x5 ?_)
  · funext a; apply Fin.ext; match a with | ⟨0, _⟩ => rfl | ⟨1, _⟩ => rfl | ⟨2, _⟩ => rfl
  · funext a; apply Fin.ext; match a with | ⟨0, _⟩ => rfl | ⟨1, _⟩ => rfl | ⟨2, _⟩ => rfl
  · funext a; apply Fin.ext; match a with | ⟨0, _⟩ => rfl | ⟨1, _⟩ => rfl

/-- The value projection of head `h`, before regrouping. -/
theorem linV_at (x1 : (⟨S256x64x256, .f32⟩ : BufTy).Contents (Elt Ideal)) (x6 : (⟨S8x2048x2048, .f32⟩ : BufTy).Contents (Elt Ideal)) (x7 : (⟨S8x2048, .f32⟩ : BufTy).Contents (Elt Ideal))
    (h : Fin 8) (r : Fin 256) (c : Fin 2048) :
    val_main_v19 (F := Ideal) x1 x6 x7 (ix3 h r c) = Cert.Spec.lin (fun r i => val_main_v5 (F := Ideal) x1 (ix3 h r i)) (fun o i => x6 (ix3 h o i)) (fun o => x7 (ix2 h o)) r c := by
  rw [val_main_v19_apply, val_main_v16_apply, val_main_v18_apply, val_main_v17_apply]
  generalize val_main_v5 (F := Ideal) x1 = y
  unfold Cert.Spec.lin
  refine congrArg₂ (· + ·) (Finset.sum_congr rfl fun k _ => congrArg₂ (· * ·) (congrArg y ?_) (congrArg x6 ?_)) (congrArg x7 ?_)
  · funext a; apply Fin.ext; match a with | ⟨0, _⟩ => rfl | ⟨1, _⟩ => rfl | ⟨2, _⟩ => rfl
  · funext a; apply Fin.ext; match a with | ⟨0, _⟩ => rfl | ⟨1, _⟩ => rfl | ⟨2, _⟩ => rfl
  · funext a; apply Fin.ext; match a with | ⟨0, _⟩ => rfl | ⟨1, _⟩ => rfl

/-- The query projection at channel `d` of token `q`. -/
theorem projQ_at (x0 : (⟨S256x64x256, .f32⟩ : BufTy).Contents (Elt Ideal)) (x2 : (⟨S8x2048x2048, .f32⟩ : BufTy).Contents (Elt Ideal)) (x3 : (⟨S8x2048, .f32⟩ : BufTy).Contents (Elt Ideal))
    (h : Fin 8) (r : Fin 256) (q : Fin 64) (d : Fin 32) :
    val_main_v10 (F := Ideal) x0 x2 x3 (ix4 h r q d) = Cert.Spec.lin (fun r i => val_main_v2 (F := Ideal) x0 (ix3 h r i)) (fun o i => x2 (ix3 h o i)) (fun o => x3 (ix2 h o)) r (Cert.Spec.col q d) := by
  rw [val_main_v10_apply]
  exact (congrArg (val_main_v9 (F := Ideal) x0 x2 x3) (idx_split h r q d)).trans (linQ_at x0 x2 x3 h r _)

/-- The key projection at channel `d` of token `q`. -/
theorem projK_at (x1 : (⟨S256x64x256, .f32⟩ : BufTy).Contents (Elt Ideal)) (x4 : (⟨S8x2048x2048, .f32⟩ : BufTy).Contents (Elt Ideal)) (x5 : (⟨S8x2048, .f32⟩ : BufTy).Contents (Elt Ideal))
    (h : Fin 8) (r : Fin 256) (q : Fin 64) (d : Fin 32) :
    val_main_v15 (F := Ideal) x1 x4 x5 (ix4 h r q d) = Cert.Spec.lin (fun r i => val_main_v5 (F := Ideal) x1 (ix3 h r i)) (fun o i => x4 (ix3 h o i)) (fun o => x5 (ix2 h o)) r (Cert.Spec.col q d) := by
  rw [val_main_v15_apply]
  exact (congrArg (val_main_v14 (F := Ideal) x1 x4 x5) (idx_split h r q d)).trans (linK_at x1 x4 x5 h r _)

/-- The value projection at channel `d` of token `q`. -/
theorem projV_at (x1 : (⟨S256x64x256, .f32⟩ : BufTy).Contents (Elt Ideal)) (x6 : (⟨S8x2048x2048, .f32⟩ : BufTy).Contents (Elt Ideal)) (x7 : (⟨S8x2048, .f32⟩ : BufTy).Contents (Elt Ideal))
    (h : Fin 8) (r : Fin 256) (q : Fin 64) (d : Fin 32) :
    val_main_v20 (F := Ideal) x1 x6 x7 (ix4 h r q d) = Cert.Spec.lin (fun r i => val_main_v5 (F := Ideal) x1 (ix3 h r i)) (fun o i => x6 (ix3 h o i)) (fun o => x7 (ix2 h o)) r (Cert.Spec.col q d) := by
  rw [val_main_v20_apply]
  exact (congrArg (val_main_v19 (F := Ideal) x1 x6 x7) (idx_split h r q d)).trans (linV_at x1 x6 x7 h r _)

/-! ## The scores and their softmax over the query tokens

From here on `Q`, `K`, `V` are any three families of rows that the regrouped projections of head `h` read as: the scores
and their softmax depend on the projections only through these values. -/

/-- A score: the inner product over the 32 channels of query token `q` with key token `k`. -/
theorem score_at (x0 x1 : (⟨S256x64x256, .f32⟩ : BufTy).Contents (Elt Ideal)) (x2 : (⟨S8x2048x2048, .f32⟩ : BufTy).Contents (Elt Ideal)) (x3 : (⟨S8x2048, .f32⟩ : BufTy).Contents (Elt Ideal)) (x4 : (⟨S8x2048x2048, .f32⟩ : BufTy).Contents (Elt Ideal)) (x5 : (⟨S8x2048, .f32⟩ : BufTy).Contents (Elt Ideal))
    (h : Fin 8) (Q K : Fin 256 → Fin 2048 → EReal) (hQ : ∀ (r : Fin 256) (q : Fin 64) (d : Fin 32), val_main_v10 (F := Ideal) x0 x2 x3 (ix4 h r q d) = Q r (Cert.Spec.col q d)) (hK : ∀ (r : Fin 256) (q : Fin 64) (d : Fin 32), val_main_v15 (F := Ideal) x1 x4 x5 (ix4 h r q d) = K r (Cert.Spec.col q d))
    (r : Fin 256) (q k : Fin 64) :
    val_main_v21 (F := Ideal) x0 x1 x2 x3 x4 x5 (ix4 h r q k) = Cert.Spec.score Q K r q k := by
  rw [val_main_v21_apply]
  unfold Cert.Spec.score
  refine Finset.sum_congr rfl fun d _ => congrArg₂ (· * ·) ?_ ?_
  · have e : lidx_main_v21 (ix4 h r q k) d = ix4 h r q d := by
      funext a; apply Fin.ext; match a with | ⟨0, _⟩ => rfl | ⟨1, _⟩ => rfl | ⟨2, _⟩ => rfl | ⟨3, _⟩ => rfl
    exact (congrArg (val_main_v10 (F := Ideal) x0 x2 x3) e).trans (hQ r q d)
  · have e : ridx_main_v21 (ix4 h r q k) d = ix4 h r k d := by
      funext a; apply Fin.ext; match a with | ⟨0, _⟩ => rfl | ⟨1, _⟩ => rfl | ⟨2, _⟩ => rfl | ⟨3, _⟩ => rfl
    exact (congrArg (val_main_v15 (F := Ideal) x1 x4 x5) e).trans (hK r k d)

/-- The largest score of key token `k` over the query tokens: the reduction starts from minus infinity, and the maximum
    with minus infinity taken afterwards changes nothing, the fold being at least its starting value. -/
theorem max_at (x0 x1 : (⟨S256x64x256, .f32⟩ : BufTy).Contents (Elt Ideal)) (x2 : (⟨S8x2048x2048, .f32⟩ : BufTy).Contents (Elt Ideal)) (x3 : (⟨S8x2048, .f32⟩ : BufTy).Contents (Elt Ideal)) (x4 : (⟨S8x2048x2048, .f32⟩ : BufTy).Contents (Elt Ideal)) (x5 : (⟨S8x2048, .f32⟩ : BufTy).Contents (Elt Ideal))
    (h : Fin 8) (Q K : Fin 256 → Fin 2048 → EReal) (hQ : ∀ (r : Fin 256) (q : Fin 64) (d : Fin 32), val_main_v10 (F := Ideal) x0 x2 x3 (ix4 h r q d) = Q r (Cert.Spec.col q d)) (hK : ∀ (r : Fin 256) (q : Fin 64) (d : Fin 32), val_main_v15 (F := Ideal) x1 x4 x5 (ix4 h r q d) = K r (Cert.Spec.col q d))
    (r : Fin 256) (k : Fin 64) :
    val_main_v24 (F := Ideal) x0 x1 x2 x3 x4 x5 (ix3 h r k) = Cert.Spec.colMax Q K r k := by
  have h22 : val_main_v22 (F := Ideal) x0 x1 x2 x3 x4 x5 (ix3 h r k)
      = (Finset.univ : Finset (Fin 64)).fold max Cert.Spec.negInf fun q => Cert.Spec.score Q K r q k := by
    unfold val_main_v22
    refine (hostMax_axis2_of4_apply _ _ _ (by decide) _ h r k).trans ?_
    have hf : (fun q : Fin 64 => val_main_v21 (F := Ideal) x0 x1 x2 x3 x4 x5 (ix4 h r q k))
        = fun q => Cert.Spec.score Q K r q k := funext fun q => score_at x0 x1 x2 x3 x4 x5 h Q K hQ hK r q k
    rw [hf]
    rfl
  rw [val_main_v24_apply, val_main_v23_apply, val_main_cst_0_apply, h22]
  unfold Cert.Spec.colMax
  exact max_eq_right ((Finset.le_fold_max _).mpr (Or.inl le_rfl))

/-- The exponential of a score less the largest score of its key token. -/
theorem expo_at (x0 x1 : (⟨S256x64x256, .f32⟩ : BufTy).Contents (Elt Ideal)) (x2 : (⟨S8x2048x2048, .f32⟩ : BufTy).Contents (Elt Ideal)) (x3 : (⟨S8x2048, .f32⟩ : BufTy).Contents (Elt Ideal)) (x4 : (⟨S8x2048x2048, .f32⟩ : BufTy).Contents (Elt Ideal)) (x5 : (⟨S8x2048, .f32⟩ : BufTy).Contents (Elt Ideal))
    (h : Fin 8) (Q K : Fin 256 → Fin 2048 → EReal) (hQ : ∀ (r : Fin 256) (q : Fin 64) (d : Fin 32), val_main_v10 (F := Ideal) x0 x2 x3 (ix4 h r q d) = Q r (Cert.Spec.col q d)) (hK : ∀ (r : Fin 256) (q : Fin 64) (d : Fin 32), val_main_v15 (F := Ideal) x1 x4 x5 (ix4 h r q d) = K r (Cert.Spec.col q d))
    (r : Fin 256) (q k : Fin 64) :
    val_main_v28 (F := Ideal) x0 x1 x2 x3 x4 x5 (ix4 h r q k) = Cert.Spec.expo Q K r q k := by
  have e : idx_main_v25 (idx_main_v26 (ix4 h r q k)) = ix3 h r k := by
    funext a; apply Fin.ext; match a with | ⟨0, _⟩ => rfl | ⟨1, _⟩ => rfl | ⟨2, _⟩ => rfl
  rw [val_main_v28_apply, val_main_v27_apply, val_main_v26_apply, val_main_v25_apply,
    score_at x0 x1 x2 x3 x4 x5 h Q K hQ hK r q k]
  refine (congrArg (fun m => FloatOps.hostUnary (F := Ideal) .exp (FloatOps.subf (Cert.Spec.score Q K r q k) m))
    ((congrArg (val_main_v24 (F := Ideal) x0 x1 x2 x3 x4 x5) e).trans (max_at x0 x1 x2 x3 x4 x5 h Q K hQ hK r k))).trans ?_
  rfl

/-- The sum over the query tokens of the exponentials of key token `k`; the sum starts from zero. -/
theorem den_at (x0 x1 : (⟨S256x64x256, .f32⟩ : BufTy).Contents (Elt Ideal)) (x2 : (⟨S8x2048x2048, .f32⟩ : BufTy).Contents (Elt Ideal)) (x3 : (⟨S8x2048, .f32⟩ : BufTy).Contents (Elt Ideal)) (x4 : (⟨S8x2048x2048, .f32⟩ : BufTy).Contents (Elt Ideal)) (x5 : (⟨S8x2048, .f32⟩ : BufTy).Contents (Elt Ideal))
    (h : Fin 8) (Q K : Fin 256 → Fin 2048 → EReal) (hQ : ∀ (r : Fin 256) (q : Fin 64) (d : Fin 32), val_main_v10 (F := Ideal) x0 x2 x3 (ix4 h r q d) = Q r (Cert.Spec.col q d)) (hK : ∀ (r : Fin 256) (q : Fin 64) (d : Fin 32), val_main_v15 (F := Ideal) x1 x4 x5 (ix4 h r q d) = K r (Cert.Spec.col q d))
    (r : Fin 256) (k : Fin 64) :
    val_main_v29 (F := Ideal) x0 x1 x2 x3 x4 x5 (ix3 h r k) = Cert.Spec.den Q K r k := by
  rw [val_main_v29_apply]
  have hz : ∀ i, val_main_cst_1 (F := Ideal) i = 0 := fun _ => Ideal.ofBits_zero_f32
  rw [hz, zero_add]
  unfold Cert.Spec.den
  refine Finset.sum_congr rfl fun q _ => ?_
  have e : idx_main_v29 (ix3 h r k) q = ix4 h r q k := by
    funext a; apply Fin.ext; match a with | ⟨0, _⟩ => rfl | ⟨1, _⟩ => rfl | ⟨2, _⟩ => rfl | ⟨3, _⟩ => rfl
  exact (congrArg (val_main_v28 (F := Ideal) x0 x1 x2 x3 x4 x5) e).trans (expo_at x0 x1 x2 x3 x4 x5 h Q K hQ hK r q k)

/-- The normalised weight of query token `q` for key token `k`. -/
theorem weight_at (x0 x1 : (⟨S256x64x256, .f32⟩ : BufTy).Contents (Elt Ideal)) (x2 : (⟨S8x2048x2048, .f32⟩ : BufTy).Contents (Elt Ideal)) (x3 : (⟨S8x2048, .f32⟩ : BufTy).Contents (Elt Ideal)) (x4 : (⟨S8x2048x2048, .f32⟩ : BufTy).Contents (Elt Ideal)) (x5 : (⟨S8x2048, .f32⟩ : BufTy).Contents (Elt Ideal))
    (h : Fin 8) (Q K : Fin 256 → Fin 2048 → EReal) (hQ : ∀ (r : Fin 256) (q : Fin 64) (d : Fin 32), val_main_v10 (F := Ideal) x0 x2 x3 (ix4 h r q d) = Q r (Cert.Spec.col q d)) (hK : ∀ (r : Fin 256) (q : Fin 64) (d : Fin 32), val_main_v15 (F := Ideal) x1 x4 x5 (ix4 h r q d) = K r (Cert.Spec.col q d))
    (r : Fin 256) (q k : Fin 64) :
    val_main_v32 (F := Ideal) x0 x1 x2 x3 x4 x5 (ix4 h r q k)
      = Ideal.div (Cert.Spec.expo Q K r q k) (Cert.Spec.den Q K r k) := by
  have e : idx_main_v30 (idx_main_v31 (ix4 h r q k)) = ix3 h r k := by
    funext a; apply Fin.ext; match a with | ⟨0, _⟩ => rfl | ⟨1, _⟩ => rfl | ⟨2, _⟩ => rfl
  rw [val_main_v32_apply, val_main_v31_apply, val_main_v30_apply, expo_at x0 x1 x2 x3 x4 x5 h Q K hQ hK r q k]
  exact congrArg (fun m => Ideal.div (Cert.Spec.expo Q K r q k) m)
    ((congrArg (val_main_v29 (F := Ideal) x0 x1 x2 x3 x4 x5) e).trans (den_at x0 x1 x2 x3 x4 x5 h Q K hQ hK r k))

/-- The attention of head `h`: the weights applied to the value tokens, scaled. -/
theorem attend_at (x0 x1 : (⟨S256x64x256, .f32⟩ : BufTy).Contents (Elt Ideal)) (x2 : (⟨S8x2048x2048, .f32⟩ : BufTy).Contents (Elt Ideal)) (x3 : (⟨S8x2048, .f32⟩ : BufTy).Contents (Elt Ideal)) (x4 : (⟨S8x2048x2048, .f32⟩ : BufTy).Contents (Elt Ideal)) (x5 : (⟨S8x2048, .f32⟩ : BufTy).Contents (Elt Ideal)) (x6 : (⟨S8x2048x2048, .f32⟩ : BufTy).Contents (Elt Ideal)) (x7 : (⟨S8x2048, .f32⟩ : BufTy).Contents (Elt Ideal))
    (h : Fin 8) (Q K V : Fin 256 → Fin 2048 → EReal) (hQ : ∀ (r : Fin 256) (q : Fin 64) (d : Fin 32), val_main_v10 (F := Ideal) x0 x2 x3 (ix4 h r q d) = Q r (Cert.Spec.col q d)) (hK : ∀ (r : Fin 256) (q : Fin 64) (d : Fin 32), val_main_v15 (F := Ideal) x1 x4 x5 (ix4 h r q d) = K r (Cert.Spec.col q d)) (hV : ∀ (r : Fin 256) (q : Fin 64) (d : Fin 32), val_main_v20 (F := Ideal) x1 x6 x7 (ix4 h r q d) = V r (Cert.Spec.col q d))
    (r : Fin 256) (q : Fin 64) (d : Fin 32) :
    val_main_v35 (F := Ideal) x0 x1 x2 x3 x4 x5 x6 x7 (ix4 h r q d) = Cert.Spec.attend Q K V r q d := by
  rw [val_main_v35_apply, val_main_v33_apply, val_main_v34_apply, val_main_cst_2_apply]
  unfold Cert.Spec.attend
  refine congrArg₂ (· * ·) (Finset.sum_congr rfl fun k _ => congrArg₂ (· * ·) ?_ ?_) rfl
  · have e : lidx_main_v33 (ix4 h r q d) k = ix4 h r q k := by
      funext a; apply Fin.ext; match a with | ⟨0, _⟩ => rfl | ⟨1, _⟩ => rfl | ⟨2, _⟩ => rfl | ⟨3, _⟩ => rfl
    exact (congrArg (val_main_v32 (F := Ideal) x0 x1 x2 x3 x4 x5) e).trans (weight_at x0 x1 x2 x3 x4 x5 h Q K hQ hK r q k)
  · have e : ridx_main_v33 (ix4 h r q d) k = ix4 h r k d := by
      funext a; apply Fin.ext; match a with | ⟨0, _⟩ => rfl | ⟨1, _⟩ => rfl | ⟨2, _⟩ => rfl | ⟨3, _⟩ => rfl
    exact (congrArg (val_main_v20 (F := Ideal) x1 x6 x7) e).trans (hV r k d)

/-- The reference's result for head `h`, row `r`, token `q`, channel `d`: the attention of the three affine
    projections of the head's rows. -/
theorem ref_at (x0 x1 : (⟨S256x64x256, .f32⟩ : BufTy).Contents (Elt Ideal)) (x2 : (⟨S8x2048x2048, .f32⟩ : BufTy).Contents (Elt Ideal)) (x3 : (⟨S8x2048, .f32⟩ : BufTy).Contents (Elt Ideal)) (x4 : (⟨S8x2048x2048, .f32⟩ : BufTy).Contents (Elt Ideal)) (x5 : (⟨S8x2048, .f32⟩ : BufTy).Contents (Elt Ideal)) (x6 : (⟨S8x2048x2048, .f32⟩ : BufTy).Contents (Elt Ideal)) (x7 : (⟨S8x2048, .f32⟩ : BufTy).Contents (Elt Ideal))
    (h : Fin 8) (r : Fin 256) (q : Fin 64) (d : Fin 32) :
    val_main_v35 (F := Ideal) x0 x1 x2 x3 x4 x5 x6 x7 (ix4 h r q d)
      = Cert.Spec.attend
          (Cert.Spec.lin (fun r i => val_main_v2 (F := Ideal) x0 (ix3 h r i)) (fun o i => x2 (ix3 h o i)) (fun o => x3 (ix2 h o)))
          (Cert.Spec.lin (fun r i => val_main_v5 (F := Ideal) x1 (ix3 h r i)) (fun o i => x4 (ix3 h o i)) (fun o => x5 (ix2 h o)))
          (Cert.Spec.lin (fun r i => val_main_v5 (F := Ideal) x1 (ix3 h r i)) (fun o i => x6 (ix3 h o i)) (fun o => x7 (ix2 h o)))
          r q d :=
  attend_at x0 x1 x2 x3 x4 x5 x6 x7 h _ _ _ (projQ_at x0 x2 x3 h) (projK_at x1 x4 x5 h) (projV_at x1 x6 x7 h) r q d

end Cert.ReferenceIdeal.RefValue

end
-- ==== Proof.Bridge.lean ====
/-
  The reference's result is the kernel program's result, as functions of the eight arguments.

  The reference ends with the same merge of the heads; before the merge its array [8, 256, 64, 32] holds, at head `h`, row `r`,
  token `q`, channel `d`, the attention of the head's three projections, which is what the kernel program's array
  [8, 256, 2048] holds at position `32 q + d` of row `r` of head `h`.
-/
import proofs.«110373_j63084479644164_2_alg».proof.Proof.RefValue
import proofs.«110373_j63084479644164_2_alg».proof.Proof.KernelRun
import Idealize.ShloMosaic.Lib.Pipeline.Value
import Idealize.ShloMosaic.Lib.ValueIdx

noncomputable section

open Idealize.ShloMosaic Idealize.ShloMosaic.ValueIdx

namespace Cert.Bridge

open Cert.KernelIdeal.Final Cert.KernelIdeal.KernelRun Cert.KernelIdeal.Prefix

/-- Before the merge: the reference's array is the kernel program's array regrouped as 64 tokens of 32 channels. -/
theorem before_merge (a0 a1 : (⟨Cert.KernelIdeal.S256x64x256, .f32⟩ : BufTy).Contents (Elt Ideal))
    (w2 : (⟨Cert.KernelIdeal.S8x2048x2048, .f32⟩ : BufTy).Contents (Elt Ideal)) (b3 : (⟨Cert.KernelIdeal.S8x2048, .f32⟩ : BufTy).Contents (Elt Ideal))
    (w4 : (⟨Cert.KernelIdeal.S8x2048x2048, .f32⟩ : BufTy).Contents (Elt Ideal)) (b5 : (⟨Cert.KernelIdeal.S8x2048, .f32⟩ : BufTy).Contents (Elt Ideal))
    (w6 : (⟨Cert.KernelIdeal.S8x2048x2048, .f32⟩ : BufTy).Contents (Elt Ideal)) (b7 : (⟨Cert.KernelIdeal.S8x2048, .f32⟩ : BufTy).Contents (Elt Ideal)) :
    Cert.ReferenceIdeal.Read.val_main_v35 (F := Ideal) a0 a1 w2 b3 w4 b5 w6 b7
      = shapeCast Cert.KernelIdeal.S8x256x64x32 (headsOut a0 a1 w2 b3 w4 b5 w6 b7) Cert.KernelIdeal.Facts₀.shapeCasts_S8x256x2048_S8x256x64x32 := by
  funext i
  obtain ⟨h, r, q, d, rfl⟩ : ∃ (h : Fin 8) (r : Fin 256) (q : Fin 64) (d : Fin 32), i = ix4 h r q d := ⟨i 0, i 1, i 2, i 3, eq_ix4 i⟩
  rw [Cert.ReferenceIdeal.RefValue.ref_at]
  symm
  refine (shapeCast_apply (headsOut a0 a1 w2 b3 w4 b5 w6 b7) Cert.KernelIdeal.Facts₀.shapeCasts_S8x256x2048_S8x256x64x32 (ix4 h r q d)
    (ix3 h r (Cert.Spec.col q d)) ?_).trans ?_
  · rewrite [Shape.rowMajor_val_three, Shape.rowMajor_val_four]
    show (h.val * 256 + r.val) * 2048 + (q.val * 32 + d.val) = ((h.val * 256 + r.val) * 64 + q.val) * 32 + d.val
    omega
  · unfold headsOut
    rw [at3_ix3, Cert.Spec.tok_col, Cert.Spec.chan_col]
    rfl

/-- The reference's result, as a function of the arguments, is the merged heads of `headsOut`. -/
theorem result_eq (a0 a1 : (⟨Cert.KernelIdeal.S256x64x256, .f32⟩ : BufTy).Contents (Elt Ideal))
    (w2 : (⟨Cert.KernelIdeal.S8x2048x2048, .f32⟩ : BufTy).Contents (Elt Ideal)) (b3 : (⟨Cert.KernelIdeal.S8x2048, .f32⟩ : BufTy).Contents (Elt Ideal))
    (w4 : (⟨Cert.KernelIdeal.S8x2048x2048, .f32⟩ : BufTy).Contents (Elt Ideal)) (b5 : (⟨Cert.KernelIdeal.S8x2048, .f32⟩ : BufTy).Contents (Elt Ideal))
    (w6 : (⟨Cert.KernelIdeal.S8x2048x2048, .f32⟩ : BufTy).Contents (Elt Ideal)) (b7 : (⟨Cert.KernelIdeal.S8x2048, .f32⟩ : BufTy).Contents (Elt Ideal)) :
    Cert.ReferenceIdeal.Read.val_main_v37 (F := Ideal) a0 a1 w2 b3 w4 b5 w6 b7 = merge (headsOut a0 a1 w2 b3 w4 b5 w6 b7) := by
  unfold Cert.ReferenceIdeal.Read.val_main_v37 Cert.ReferenceIdeal.Read.val_main_v36
  rw [before_merge]
  rfl

end Cert.Bridge

end
-- ==== Proof.lean ====
/-
  The certificate of the fused per-head attention kernel against its reference, over the extended reals.

  Both programs split the two activations into eight heads of 2048 positions (64 tokens of 32 channels), project each
  head three times (`x · Wᵀ + b` over the 2048 positions), take the scores of query token against key token over the 32
  channels, normalise them by a softmax over the QUERY tokens, weigh the value tokens, scale, and merge the heads.
  The kernel visits each head four times, adding one tile of 512 positions to three accumulators that start at the
  bias, and does the attention on the fourth visit; the reference computes each projection as one inner product over
  the 2048 positions plus the bias. The two agree because the four tiles' partial products add up to the whole inner
  product — addition on the extended reals is commutative and associative, so no input need be finite for this — and
  everything after the projections is the same arithmetic read at the same indices; the narrowing of the activations
  and weights to the short float format is the identity on exact values.
  The frames of the two kernel programs are the generated ones; the reference's frame is its generated run with the
  result dropped; the idealization changed nothing, so `preserves` is trivial.
-/
import proofs.«110373_j63084479644164_2_alg».proof.Defs
import proofs.«110373_j63084479644164_2_alg».proof.Proof.Gen.Kernel
import proofs.«110373_j63084479644164_2_alg».proof.Proof.Gen.Kernel.Skeleton
import proofs.«110373_j63084479644164_2_alg».proof.Proof.Gen.Kernel.Launch
import proofs.«110373_j63084479644164_2_alg».proof.Proof.Gen.Kernel.Points
import proofs.«110373_j63084479644164_2_alg».proof.Proof.Gen.Kernel.Frame
import proofs.«110373_j63084479644164_2_alg».proof.Proof.Gen.KernelIdeal
import proofs.«110373_j63084479644164_2_alg».proof.Proof.Gen.KernelIdeal.Skeleton
import proofs.«110373_j63084479644164_2_alg».proof.Proof.Gen.KernelIdeal.Launch
import proofs.«110373_j63084479644164_2_alg».proof.Proof.Gen.KernelIdeal.Points
import proofs.«110373_j63084479644164_2_alg».proof.Proof.Gen.KernelIdeal.Frame
import proofs.«110373_j63084479644164_2_alg».proof.Proof.Gen.ReferenceIdeal
import proofs.«110373_j63084479644164_2_alg».proof.Proof.Gen.ReferenceIdeal.Run
import proofs.«110373_j63084479644164_2_alg».proof.Proof.Gen.ReferenceIdeal.Read
import proofs.«110373_j63084479644164_2_alg».proof.Proof.Gen.Pre_finite_inputs
import proofs.«110373_j63084479644164_2_alg».proof.Proof.KernelRun
import proofs.«110373_j63084479644164_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the merged heads of the same attention. -/
theorem algebraic : Cert.algebraic_KernelIdeal_ReferenceIdeal := by
  intro m ρ m' ρ' _ hagree
  refine ⟨fun c => Cert.KernelIdeal.KernelRun.merge (Cert.KernelIdeal.Final.headsOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.Bridge.result_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
